-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S64x64 .f32) (main_arg3 : FVec F S64 .f32) (main_arg4 : FVec F S64x40 .f32) (main_arg5 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S10000x64 : Shape := ⟨2, ![10000, 64]⟩
abbrev S1350000x64 : Shape := ⟨2, ![1350000, 64]⟩
abbrev S1x64 : Shape := ⟨2, ![1, 64]⟩
abbrev S100000x40 : Shape := ⟨2, ![100000, 40]⟩
abbrev S10000x40 : Shape := ⟨2, ![10000, 40]⟩
abbrev S1350000x40 : Shape := ⟨2, ![1350000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1250000, .i32⟩
  | .hbm, ⟨8, _⟩ => ⟨S1250000, .i32⟩
  | .hbm, ⟨9, _⟩ => ⟨S1350000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S_, .f32⟩
  | .hbm, ⟨14, _⟩ => ⟨S1350000, .f32⟩
  | .hbm, ⟨15, _⟩ => ⟨S_, .f32⟩
  | .hbm, ⟨16, _⟩ => ⟨S100000, .f32⟩
  | .hbm, ⟨17, _⟩ => ⟨S1350000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1350000, .i32⟩
  | .hbm, ⟨29, _⟩ => ⟨S1350000, .i1⟩
  | .hbm, ⟨30, _⟩ => ⟨S_, .i32⟩
  | .hbm, ⟨31, _⟩ => ⟨S1350000, .i32⟩
  | .hbm, ⟨32, _⟩ => ⟨S1350000, .i32⟩
  | .hbm, ⟨33, _⟩ => ⟨S1350000, .i32⟩
  | .hbm, ⟨34, _⟩ => ⟨S1350000x1, .i32⟩
  | .hbm, ⟨35, _⟩ => ⟨S1350000, .f32⟩
  | .hbm, ⟨36, _⟩ => ⟨S_, .i32⟩
  | .hbm, ⟨37, _⟩ => ⟨S1350000, .i32⟩
  | .hbm, ⟨38, _⟩ => ⟨S1350000, .i1⟩
  | .hbm, ⟨39, _⟩ => ⟨S_, .i32⟩
  | .hbm, ⟨40, _⟩ => ⟨S1350000, .i32⟩
  | .hbm, ⟨41, _⟩ => ⟨S1350000, .i32⟩
  | .hbm, ⟨42, _⟩ => ⟨S1350000, .i32⟩
  | .hbm, ⟨43, _⟩ => ⟨S1350000x1, .i32⟩
  | .hbm, ⟨44, _⟩ => ⟨S1350000, .f32⟩
  | .hbm, ⟨45, _⟩ => ⟨S1350000, .f32⟩
  | .hbm, ⟨46, _⟩ => ⟨S100000x64, .bf16⟩
  | .hbm, ⟨47, _⟩ => ⟨S64x64, .bf16⟩
  | .hbm, ⟨48, _⟩ => ⟨S100000x64, .f32⟩
  | .hbm, ⟨49, _⟩ => ⟨S_, .i32⟩
  | .hbm, ⟨50, _⟩ => ⟨S1350000, .i32⟩
  | .hbm, ⟨51, _⟩ => ⟨S1350000, .i1⟩
  | .hbm, ⟨52, _⟩ => ⟨S_, .i32⟩
  | .hbm, ⟨53, _⟩ => ⟨S1350000, .i32⟩
  | .hbm, ⟨54, _⟩ => ⟨S1350000, .i32⟩
  | .hbm, ⟨55, _⟩ => ⟨S1350000, .i32⟩
  | .hbm, ⟨56, _⟩ => ⟨S1350000x1, .i32⟩
  | .hbm, ⟨57, _⟩ => ⟨S1350000x64, .f32⟩
  | .hbm, ⟨58, _⟩ => ⟨S1350000x1, .f32⟩
  | .hbm, ⟨59, _⟩ => ⟨S1350000x64, .f32⟩
  | .hbm, ⟨60, _⟩ => ⟨S1350000x64, .f32⟩
  | .hbm, ⟨61, _⟩ => ⟨S_, .f32⟩
  | .hbm, ⟨62, _⟩ => ⟨S100000x64, .f32⟩
  | .hbm, ⟨63, _⟩ => ⟨S1350000x1, .i32⟩
  | .hbm, ⟨64, _⟩ => ⟨S100000x64, .f32⟩
  | .hbm, ⟨65, _⟩ => ⟨S1x64, .f32⟩
  | .hbm, ⟨66, _⟩ => ⟨S64x40, .bf16⟩
  | .hbm, ⟨67, _⟩ => ⟨S100000x40, .f32⟩
  | .hbm, ⟨68, _⟩ => ⟨S_, .i32⟩
  | .hbm, ⟨69, _⟩ => ⟨S1350000, .i32⟩
  | .hbm, ⟨70, _⟩ => ⟨S1350000, .i1⟩
  | .hbm, ⟨71, _⟩ => ⟨S_, .i32⟩
  | .hbm, ⟨72, _⟩ => ⟨S1350000, .i32⟩
  | .hbm, ⟨73, _⟩ => ⟨S1350000, .i32⟩
  | .hbm, ⟨74, _⟩ => ⟨S1350000, .i32⟩
  | .hbm, ⟨75, _⟩ => ⟨S1350000x1, .i32⟩
  | .hbm, ⟨76, _⟩ => ⟨S1350000x40, .f32⟩
  | .hbm, ⟨77, _⟩ => ⟨S1350000x1, .f32⟩
  | .hbm, ⟨78, _⟩ => ⟨S1350000x40, .f32⟩
  | .hbm, ⟨79, _⟩ => ⟨S1350000x40, .f32⟩
  | .hbm, ⟨80, _⟩ => ⟨S_, .f32⟩
  | .hbm, ⟨81, _⟩ => ⟨S100000x40, .f32⟩
  | .hbm, ⟨82, _⟩ => ⟨S1350000x1, .i32⟩
  | .hbm, ⟨83, _⟩ => ⟨S100000x40, .f32⟩
  | .hbm, ⟨84, _⟩ => ⟨S1x40, .f32⟩
  | .hbm, ⟨85, _⟩ => ⟨S100000x40, .f32⟩
  | .local _ .vmem, ⟨0, _⟩ => ⟨S10000x64, .bf16⟩
  | .local _ .vmem, ⟨1, _⟩ => ⟨S10000x64, .bf16⟩
  | .local _ .vmem, ⟨2, _⟩ => ⟨S64x64, .bf16⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x40, .bf16⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S10000x40_S10000x40_0_0 : ∀ a, (![0, 0] : Fin 2 → Nat) a + S10000x40.size a ≤ S10000x40.size a
  h_S10000x40 : 0 < S10000x40.numel
  bcast_S1350000x1_S1350000x40_0_1 : S1350000x1.BroadcastsInDim S1350000x40 (![0, 1] : Fin 2 → Fin S1350000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S10000x64_S64x64_S10000x64_1_0_0_1_n_n_wf : DotDims.WF S10000x64 S64x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S10000x64_S64x40_S10000x40_1_0_0_1_n_n_wf : DotDims.WF S10000x64 S64x40 S10000x40 [1] [0] [0] [1] [] []
  gather_S100000x40_S1350000x1_S1350000x40_1_0_n_n_0_1_140_wf : GatherDims.WF S100000x40 S1350000x1 S1350000x40 [1] [0] [] [0] [] 1 ![1, 40]
  scatter_S100000x40_S1350000x1_S1350000x40_1_0_0_1_wf : ScatterDims.WF S100000x40 S1350000x1 S1350000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .bf16 = 32 ∨ (Rect.block (s := S100000x64) S10000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .bf16 = 32 ∨ (Rect.block (s := S64x40) S64x40.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1350000x1_S1350000x40_1_0_n_n_0_1_140 : GatherDims S100000x40 S1350000x1 S1350000x40 where
  offsetDims := [1]
  collapsedSliceDims := [0]
  operandBatchingDims := []
  startIndicesBatchingDims := []
  startIndexMap := [0]
  indexVectorDim := 1
  sliceSizes := ![1, 40]
  wf := gather_S100000x40_S1350000x1_S1350000x40_1_0_n_n_0_1_140_wf
def scatter_S100000x40_S1350000x1_S1350000x40_1_0_0_1 : ScatterDims S100000x40 S1350000x1 S1350000x40 where
  updateWindowDims := [1]
  insertedWindowDims := [0]
  scatterDimsToOperandDims := [0]
  indexVectorDim := 1
  wf := scatter_S100000x40_S1350000x1_S1350000x40_1_0_0_1_wf

abbrev win0_0 : Pipeline.Window sig grid0 :=
  Pipeline.Window.ofSpec (Memref.whole main_v30) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S1x64 : Shape := ⟨2, ![1, 64]⟩
abbrev S100000x40 : Shape := ⟨2, ![100000, 40]⟩
abbrev S1350000x40 : Shape := ⟨2, ![1350000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1250000, .i32⟩
  | .hbm, ⟨8, _⟩ => ⟨S1250000, .i32⟩
  | .hbm, ⟨9, _⟩ => ⟨S1350000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S_, .f32⟩
  | .hbm, ⟨14, _⟩ => ⟨S1350000, .f32⟩
  | .hbm, ⟨15, _⟩ => ⟨S_, .f32⟩
  | .hbm, ⟨16, _⟩ => ⟨S100000, .f32⟩
  | .hbm, ⟨17, _⟩ => ⟨S1350000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1350000, .i32⟩
  | .hbm, ⟨29, _⟩ => ⟨S1350000, .i1⟩
  | .hbm, ⟨30, _⟩ => ⟨S_, .i32⟩
  | .hbm, ⟨31, _⟩ => ⟨S1350000, .i32⟩
  | .hbm, ⟨32, _⟩ => ⟨S1350000, .i32⟩
  | .hbm, ⟨33, _⟩ => ⟨S1350000, .i32⟩
  | .hbm, ⟨34, _⟩ => ⟨S1350000x1, .i32⟩
  | .hbm, ⟨35, _⟩ => ⟨S1350000, .f32⟩
  | .hbm, ⟨36, _⟩ => ⟨S_, .i32⟩
  | .hbm, ⟨37, _⟩ => ⟨S1350000, .i32⟩
  | .hbm, ⟨38, _⟩ => ⟨S1350000, .i1⟩
  | .hbm, ⟨39, _⟩ => ⟨S_, .i32⟩
  | .hbm, ⟨40, _⟩ => ⟨S1350000, .i32⟩
  | .hbm, ⟨41, _⟩ => ⟨S1350000, .i32⟩
  | .hbm, ⟨42, _⟩ => ⟨S1350000, .i32⟩
  | .hbm, ⟨43, _⟩ => ⟨S1350000x1, .i32⟩
  | .hbm, ⟨44, _⟩ => ⟨S1350000, .f32⟩
  | .hbm, ⟨45, _⟩ => ⟨S1350000, .f32⟩
  | .hbm, ⟨46, _⟩ => ⟨S100000x64, .f32⟩
  | .hbm, ⟨47, _⟩ => ⟨S_, .i32⟩
  | .hbm, ⟨48, _⟩ => ⟨S1350000, .i32⟩
  | .hbm, ⟨49, _⟩ => ⟨S1350000, .i1⟩
  | .hbm, ⟨50, _⟩ => ⟨S_, .i32⟩
  | .hbm, ⟨51, _⟩ => ⟨S1350000, .i32⟩
  | .hbm, ⟨52, _⟩ => ⟨S1350000, .i32⟩
  | .hbm, ⟨53, _⟩ => ⟨S1350000, .i32⟩
  | .hbm, ⟨54, _⟩ => ⟨S1350000x1, .i32⟩
  | .hbm, ⟨55, _⟩ => ⟨S1350000x64, .f32⟩
  | .hbm, ⟨56, _⟩ => ⟨S1350000x1, .f32⟩
  | .hbm, ⟨57, _⟩ => ⟨S1350000x64, .f32⟩
  | .hbm, ⟨58, _⟩ => ⟨S1350000x64, .f32⟩
  | .hbm, ⟨59, _⟩ => ⟨S_, .f32⟩
  | .hbm, ⟨60, _⟩ => ⟨S100000x64, .f32⟩
  | .hbm, ⟨61, _⟩ => ⟨S1350000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .i32⟩
  | .hbm, ⟨71, _⟩ => ⟨S1350000, .i32⟩
  | .hbm, ⟨72, _⟩ => ⟨S1350000, .i1⟩
  | .hbm, ⟨73, _⟩ => ⟨S_, .i32⟩
  | .hbm, ⟨74, _⟩ => ⟨S1350000, .i32⟩
  | .hbm, ⟨75, _⟩ => ⟨S1350000, .i32⟩
  | .hbm, ⟨76, _⟩ => ⟨S1350000, .i32⟩
  | .hbm, ⟨77, _⟩ => ⟨S1350000x1, .i32⟩
  | .hbm, ⟨78, _⟩ => ⟨S1350000x40, .f32⟩
  | .hbm, ⟨79, _⟩ => ⟨S1350000x1, .f32⟩
  | .hbm, ⟨80, _⟩ => ⟨S1350000x40, .f32⟩
  | .hbm, ⟨81, _⟩ => ⟨S1350000x40, .f32⟩
  | .hbm, ⟨82, _⟩ => ⟨S_, .f32⟩
  | .hbm, ⟨83, _⟩ => ⟨S100000x40, .f32⟩
  | .hbm, ⟨84, _⟩ => ⟨S1350000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1350000x1_S1350000x40_0_1 : S1350000x1.BroadcastsInDim S1350000x40 (![0, 1] : Fin 2 → Fin S1350000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x64_S64x64_S100000x64_1_0_0_1_n_n_wf : DotDims.WF S100000x64 S64x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x64_S64x40_S100000x40_1_0_0_1_n_n_wf : DotDims.WF S100000x64 S64x40 S100000x40 [1] [0] [0] [1] [] []
  gather_S100000x40_S1350000x1_S1350000x40_1_0_n_n_0_1_140_wf : GatherDims.WF S100000x40 S1350000x1 S1350000x40 [1] [0] [] [0] [] 1 ![1, 40]
  scatter_S100000x40_S1350000x1_S1350000x40_1_0_0_1_wf : ScatterDims.WF S100000x40 S1350000x1 S1350000x40 [1] [0] [0] 1

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1350000x1_S1350000x40_1_0_n_n_0_1_140 : GatherDims S100000x40 S1350000x1 S1350000x40 where
  offsetDims := [1]
  collapsedSliceDims := [0]
  operandBatchingDims := []
  startIndicesBatchingDims := []
  startIndexMap := [0]
  indexVectorDim := 1
  sliceSizes := ![1, 40]
  wf := gather_S100000x40_S1350000x1_S1350000x40_1_0_n_n_0_1_140_wf
def scatter_S100000x40_S1350000x1_S1350000x40_1_0_0_1 : ScatterDims S100000x40 S1350000x1 S1350000x40 where
  updateWindowDims := [1]
  insertedWindowDims := [0]
  scatterDimsToOperandDims := [0]
  indexVectorDim := 1
  wf := scatter_S100000x40_S1350000x1_S1350000x40_1_0_0_1_wf

class Facts : Prop extends Facts₀ where

variable [Facts]
-- ==== Proof.Spec.lean ====
/-
  The reference's result as a composition of five array functions, each spelt with the reference's own operations so
  that it IS a stage of the reference's run by unfolding:

    out = logSoftmax (biased (aggregate40 (hidden (aggregate64 (x · W1)) b1 W2)) b2)

  * `aggregate64 h row col norm` / `aggregate40 …`: the message passing of one graph convolution over the 1,350,000
    edges (the 1,250,000 given ones and one self loop per node) — row `e` of the messages is row `row e` of `h` (a
    negative index counted from the end) scaled by `norm e`, and the messages are summed into the rows `col e`;
  * `hidden a b W`: `max (a + b, 0) · W`, the bias a [1, 64] row broadcast over the 100,000 rows;
  * `biased a b`: `a + b`, the bias a [1, 40] row broadcast over the rows;
  * `logSoftmax y`: per row, `(y − M) − log Σ_k exp (y_k − M)` with `M = max (−∞, max_k y_k)`.
  The kernel computes `x · W1`, `hidden` and `logSoftmax ∘ biased` in its three pallas_calls and the two aggregations on
  the host between them, by the same operations.
-/
import proofs.«117875_j72662256714549_2_alg».proof.Proof.RefRead

noncomputable section

namespace Cert.Spec

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- A column of node indices, each negative one counted from the end (`i < 0 ↦ i + 100000`). -/
def wrapIdx (r : (⟨S1350000, .i32⟩ : BufTy).Contents (Elt F)) : (⟨S1350000x1, .i32⟩ : BufTy).Contents (Elt F) :=
  broadcastInDim S1350000x1 ![0] bcast_S1350000_S1350000x1_0
    (select (cmpi .slt r (broadcastInDim S1350000 ![] bcast_S_S1350000 (constantI S_ 32 0#32)))
      (addi r (broadcastInDim S1350000 ![] bcast_S_S1350000 (constantI S_ 32 100000#32))) r)

/-- Message passing over rows of width 64: gather the rows `row`, scale row `e` by `norm e`, sum into the rows `col`. -/
def aggregate64 (h : (⟨S100000x64, .f32⟩ : BufTy).Contents (Elt F)) (row col : (⟨S1350000, .i32⟩ : BufTy).Contents (Elt F))
    (norm : (⟨S1350000, .f32⟩ : BufTy).Contents (Elt F)) : (⟨S100000x64, .f32⟩ : BufTy).Contents (Elt F) :=
  Host.scatterAdd scatter_S100000x64_S1350000x1_S1350000x64_1_0_0_1
    (broadcastInDim S100000x64 ![] bcast_S_S100000x64 (constant S_ .f32 0x00000000#32))
    (broadcastInDim S1350000x1 ![0] bcast_S1350000_S1350000x1_0 col)
    (mulf (Host.gather gather_S100000x64_S1350000x1_S1350000x64_1_0_n_n_0_1_164 h (wrapIdx row))
      (broadcastInDim S1350000x64 ![0, 1] bcast_S1350000x1_S1350000x64_0_1
        (broadcastInDim S1350000x1 ![0] bcast_S1350000_S1350000x1_0 norm)))

/-- The same over rows of width 40. -/
def aggregate40 (h : (⟨S100000x40, .f32⟩ : BufTy).Contents (Elt F)) (row col : (⟨S1350000, .i32⟩ : BufTy).Contents (Elt F))
    (norm : (⟨S1350000, .f32⟩ : BufTy).Contents (Elt F)) : (⟨S100000x40, .f32⟩ : BufTy).Contents (Elt F) :=
  Host.scatterAdd scatter_S100000x40_S1350000x1_S1350000x40_1_0_0_1
    (broadcastInDim S100000x40 ![] bcast_S_S100000x40 (constant S_ .f32 0x00000000#32))
    (broadcastInDim S1350000x1 ![0] bcast_S1350000_S1350000x1_0 col)
    (mulf (Host.gather gather_S100000x40_S1350000x1_S1350000x40_1_0_n_n_0_1_140 h (wrapIdx row))
      (broadcastInDim S1350000x40 ![0, 1] bcast_S1350000x1_S1350000x40_0_1
        (broadcastInDim S1350000x1 ![0] bcast_S1350000_S1350000x1_0 norm)))

/-- The hidden layer: `max (a + b, 0) · W`, `b` one row broadcast over the rows of `a`. -/
def hidden (a : (⟨S100000x64, .f32⟩ : BufTy).Contents (Elt F)) (b : (⟨S1x64, .f32⟩ : BufTy).Contents (Elt F))
    (w : (⟨S64x40, .f32⟩ : BufTy).Contents (Elt F)) : (⟨S100000x40, .f32⟩ : BufTy).Contents (Elt F) :=
  Host.dotGeneral dot_S100000x64_S64x40_S100000x40_1_0_0_1_n_n none
    (maximumf (addf a (broadcastInDim S100000x64 ![0, 1] bcast_S1x64_S100000x64_0_1 b)) (val_main_call1_v0 (F := F))) w

/-- `a + b`, `b` one row broadcast over the rows of `a`. -/
def biased (a : (⟨S100000x40, .f32⟩ : BufTy).Contents (Elt F)) (b : (⟨S1x40, .f32⟩ : BufTy).Contents (Elt F)) :
    (⟨S100000x40, .f32⟩ : BufTy).Contents (Elt F) :=
  addf a (broadcastInDim S100000x40 ![0, 1] bcast_S1x40_S100000x40_0_1 b)

/-- A value per row, spread over the row's 40 entries. -/
def overRow (v : (⟨S100000, .f32⟩ : BufTy).Contents (Elt F)) : (⟨S100000x40, .f32⟩ : BufTy).Contents (Elt F) :=
  broadcastInDim S100000x40 ![0, 1] bcast_S100000x1_S100000x40_0_1 (broadcastInDim S100000x1 ![0] bcast_S100000_S100000x1_0 v)

/-- Each row's maximum, taken from `−∞` and once more against `−∞`. -/
def rowMax (y : (⟨S100000x40, .f32⟩ : BufTy).Contents (Elt F)) : (⟨S100000, .f32⟩ : BufTy).Contents (Elt F) :=
  maximumf (val_main_call2_v1 (F := F))
    (Host.reduce FloatOps.maximumf y (val_main_call2_cst (F := F)) reducesTo_S100000x40_S100000_d1 h_S_)

/-- Each entry less its row's maximum. -/
def shifted (y : (⟨S100000x40, .f32⟩ : BufTy).Contents (Elt F)) : (⟨S100000x40, .f32⟩ : BufTy).Contents (Elt F) :=
  subf y (overRow (rowMax y))

/-- The row-wise log-softmax: `(y − M) − log Σ_k exp (y_k − M)`. -/
def logSoftmax (y : (⟨S100000x40, .f32⟩ : BufTy).Contents (Elt F)) : (⟨S100000x40, .f32⟩ : BufTy).Contents (Elt F) :=
  subf (shifted y)
    (broadcastInDim S100000x40 ![0, 1] bcast_S100000x1_S100000x40_0_1
      (Host.log (broadcastInDim S100000x1 ![0] bcast_S100000_S100000x1_0
        (Host.reduceAdd (Host.exp (shifted y)) (val_main_call2_cst_1 (F := F)) reducesTo_S100000x40_S100000_d1 h_S_))))

variable (x0 : (⟨S100000x64, .f32⟩ : BufTy).Contents (Elt F)) (x1 : (⟨S2x1250000, .i32⟩ : BufTy).Contents (Elt F))
  (x2 : (⟨S64x64, .f32⟩ : BufTy).Contents (Elt F)) (x3 : (⟨S64, .f32⟩ : BufTy).Contents (Elt F))
  (x4 : (⟨S64x40, .f32⟩ : BufTy).Contents (Elt F)) (x5 : (⟨S40, .f32⟩ : BufTy).Contents (Elt F))

/-- The reference's first aggregation is `aggregate64` of its first product and its edge arrays. -/
theorem v43_eq : val_main_v43 (F := F) x0 x1 x2
    = aggregate64 (val_main_v30 (F := F) x0 x2) (val_main_v3 (F := F) x1) (val_main_v6 (F := F) x1) (val_main_v29 (F := F) x1) := rfl

/-- Its second product is `hidden` of the first aggregation. -/
theorem v48_eq : val_main_v48 (F := F) x0 x1 x2 x3 x4
    = hidden (val_main_v43 (F := F) x0 x1 x2) (val_main_v44 (F := F) x3) x4 := rfl

/-- Its second aggregation is `aggregate40` of the second product and the same edge arrays. -/
theorem v61_eq : val_main_v61 (F := F) x0 x1 x2 x3 x4
    = aggregate40 (val_main_v48 (F := F) x0 x1 x2 x3 x4) (val_main_v3 (F := F) x1) (val_main_v6 (F := F) x1) (val_main_v29 (F := F) x1) := rfl

/-- Its result is the log-softmax of the second aggregation plus the second bias. -/
theorem v65_eq : val_main_v65 (F := F) x0 x1 x2 x3 x4 x5
    = logSoftmax (biased (val_main_v61 (F := F) x0 x1 x2 x3 x4) (val_main_v62 (F := F) x5)) := rfl

/-- The reference's result, whole. -/
theorem result_eq : val_main_v65 (F := F) x0 x1 x2 x3 x4 x5
    = logSoftmax (biased (aggregate40 (hidden (aggregate64 (val_main_v30 (F := F) x0 x2) (val_main_v3 (F := F) x1)
        (val_main_v6 (F := F) x1) (val_main_v29 (F := F) x1)) (val_main_v44 (F := F) x3) x4) (val_main_v3 (F := F) x1)
        (val_main_v6 (F := F) x1) (val_main_v29 (F := F) x1)) (val_main_v62 (F := F) x5)) := by
  rw [v65_eq, v61_eq, v48_eq, v43_eq]

end Cert.Spec

end
-- ==== Proof.RefValue.lean ====
/-
  The reference's run, read stage by stage. Its @main is one line of 98 host operations, so every weakly fair
  execution terminates with each buffer at the fold of the operations' results over the launch contents. The line is
  cut in four: the 40 operations that build the edge arrays (sources, targets, normalisation weights) from the edge
  list; the 17 of the first layer (the product with the first weight matrix and its aggregation over the edges); the
  23 of the second layer (bias, `max (·, 0)`, the product with the second weight matrix, its aggregation); and the 18
  of the output (bias and the row-wise log-softmax). Over ANY contents at its start each part writes the stated
  function of the buffers it reads and leaves the earlier results and the arguments alone; composed, the result buffer
  ends at the last stage of the arguments.
-/
import proofs.«117875_j72662256714549_2_alg».proof.Proof.RefRun
import proofs.«117875_j72662256714549_2_alg».proof.Proof.Spec

set_option maxRecDepth 16384

noncomputable section

namespace Cert.ReferenceIdeal.RefValue

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable {F : FTy → Type} [FloatOps F]

/-- A line of operations run in two parts. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The four parts of the line. -/
def edgeOps : List (HloOp τ sig (Elt F)) := (ops (F := F)).take 40
def layer1Ops : List (HloOp τ sig (Elt F)) := ((ops (F := F)).drop 40).take 17
def layer2Ops : List (HloOp τ sig (Elt F)) := ((ops (F := F)).drop 57).take 23
/-- The output part, itself in five: the bias; each row's maximum from `−∞`; its maximum with `−∞` once more; the shifted
    entries and their exponentials; the logarithm of each row's sum, subtracted. -/
def biasOps : List (HloOp τ sig (Elt F)) := ((ops (F := F)).drop 80).take 3
def maxOps : List (HloOp τ sig (Elt F)) := ((ops (F := F)).drop 83).take 2
def max2Ops : List (HloOp τ sig (Elt F)) := ((ops (F := F)).drop 85).take 3
def shiftOps : List (HloOp τ sig (Elt F)) := ((ops (F := F)).drop 88).take 4
def logOps : List (HloOp τ sig (Elt F)) := (ops (F := F)).drop 92

theorem ops_eq : (ops (F := F)) = edgeOps ++ (layer1Ops ++ (layer2Ops ++ (biasOps ++ (maxOps ++ (max2Ops ++ (shiftOps ++ logOps)))))) := rfl

variable (W : Valuation τ sig (Elt F))

local macro "part" : tactic =>
  `(tactic| (simp only [edgeOps, layer1Ops, layer2Ops, biasOps, maxOps, max2Ops, shiftOps, logOps, ops, List.take, List.drop]; after_results_simp <;> rfl))

/-- The same for a part whose operations are a called function's: the transports between a value's type and its buffer's
    type are the identity (the two types are one), and are removed before the two sides are compared. -/
local macro "partC" : tactic =>
  `(tactic| (simp only [edgeOps, layer1Ops, layer2Ops, biasOps, maxOps, max2Ops, shiftOps, logOps, ops, List.take, List.drop]; after_results_simp; simp only [TRef.toBuf, TRef.ofBuf, cast_eq]; rfl))

/-! ## No operation of the line writes an argument -/

local macro "never_written" : tactic =>
  `(tactic| (simp only [ops, List.Forall, nullary_writes, unary_writes, binary_writes, ternary_writes, quaternary_writes,
      reshape_writes, binaryIndexed_writes, Finset.mem_singleton]
             repeat' apply And.intro
             all_goals exact devRef_ne_of_ne (by decide)))

theorem nw_arg0 : (ops (F := F)).Forall fun op => Proc.devRef .tc main_arg0 ∉ op.writes := by never_written
theorem nw_arg1 : (ops (F := F)).Forall fun op => Proc.devRef .tc main_arg1 ∉ op.writes := by never_written
theorem nw_arg2 : (ops (F := F)).Forall fun op => Proc.devRef .tc main_arg2 ∉ op.writes := by never_written
theorem nw_arg3 : (ops (F := F)).Forall fun op => Proc.devRef .tc main_arg3 ∉ op.writes := by never_written
theorem nw_arg4 : (ops (F := F)).Forall fun op => Proc.devRef .tc main_arg4 ∉ op.writes := by never_written
theorem nw_arg5 : (ops (F := F)).Forall fun op => Proc.devRef .tc main_arg5 ∉ op.writes := by never_written

/-- A buffer no operation of the line writes keeps its contents through any part of the line. -/
theorem kept (l : List (HloOp τ sig (Elt F))) (hl : ∀ op ∈ l, op ∈ (ops (F := F))) {r : Ref sig .tc}
    (h : (ops (F := F)).Forall fun op => Proc.devRef .tc r ∉ op.writes) :
    after l W (Proc.devRef .tc r) = W (Proc.devRef .tc r) :=
  after_of_forall_not_mem l W fun op hop => (List.forall_iff_forall_mem.mp h) op (hl op hop)

theorem edge_sub : ∀ op ∈ (edgeOps (F := F)), op ∈ (ops (F := F)) := fun _ h => List.mem_of_mem_take h
theorem layer1_sub : ∀ op ∈ (layer1Ops (F := F)), op ∈ (ops (F := F)) := fun _ h => List.mem_of_mem_drop (List.mem_of_mem_take h)
theorem layer2_sub : ∀ op ∈ (layer2Ops (F := F)), op ∈ (ops (F := F)) := fun _ h => List.mem_of_mem_drop (List.mem_of_mem_take h)

/-! ## The edge arrays -/

theorem edge_row : after edgeOps W (Proc.devRef .tc main_v3) = val_main_v3 (F := F) (W (Proc.devRef .tc main_arg1)) := by part
theorem edge_col : after edgeOps W (Proc.devRef .tc main_v6) = val_main_v6 (F := F) (W (Proc.devRef .tc main_arg1)) := by part
set_option maxHeartbeats 4000000 in
theorem edge_norm : after edgeOps W (Proc.devRef .tc main_v29) = val_main_v29 (F := F) (W (Proc.devRef .tc main_arg1)) := by part
theorem edge_arg0 : after edgeOps W (Proc.devRef .tc main_arg0) = W (Proc.devRef .tc main_arg0) := kept W _ edge_sub nw_arg0
theorem edge_arg2 : after edgeOps W (Proc.devRef .tc main_arg2) = W (Proc.devRef .tc main_arg2) := kept W _ edge_sub nw_arg2
theorem edge_arg3 : after edgeOps W (Proc.devRef .tc main_arg3) = W (Proc.devRef .tc main_arg3) := kept W _ edge_sub nw_arg3
theorem edge_arg4 : after edgeOps W (Proc.devRef .tc main_arg4) = W (Proc.devRef .tc main_arg4) := kept W _ edge_sub nw_arg4
theorem edge_arg5 : after edgeOps W (Proc.devRef .tc main_arg5) = W (Proc.devRef .tc main_arg5) := kept W _ edge_sub nw_arg5

/-! ## The first layer -/

theorem layer1_agg : after layer1Ops W (Proc.devRef .tc main_v43)
    = Cert.Spec.aggregate64 (val_main_v30 (F := F) (W (Proc.devRef .tc main_arg0)) (W (Proc.devRef .tc main_arg2)))
        (W (Proc.devRef .tc main_v3)) (W (Proc.devRef .tc main_v6)) (W (Proc.devRef .tc main_v29)) := by part
theorem layer1_row : after layer1Ops W (Proc.devRef .tc main_v3) = W (Proc.devRef .tc main_v3) := by part
theorem layer1_col : after layer1Ops W (Proc.devRef .tc main_v6) = W (Proc.devRef .tc main_v6) := by part
theorem layer1_norm : after layer1Ops W (Proc.devRef .tc main_v29) = W (Proc.devRef .tc main_v29) := by part
theorem layer1_arg3 : after layer1Ops W (Proc.devRef .tc main_arg3) = W (Proc.devRef .tc main_arg3) := kept W _ layer1_sub nw_arg3
theorem layer1_arg4 : after layer1Ops W (Proc.devRef .tc main_arg4) = W (Proc.devRef .tc main_arg4) := kept W _ layer1_sub nw_arg4
theorem layer1_arg5 : after layer1Ops W (Proc.devRef .tc main_arg5) = W (Proc.devRef .tc main_arg5) := kept W _ layer1_sub nw_arg5

/-! ## The second layer -/

theorem layer2_agg : after layer2Ops W (Proc.devRef .tc main_v61)
    = Cert.Spec.aggregate40 (Cert.Spec.hidden (W (Proc.devRef .tc main_v43)) (val_main_v44 (F := F) (W (Proc.devRef .tc main_arg3)))
          (W (Proc.devRef .tc main_arg4)))
        (W (Proc.devRef .tc main_v3)) (W (Proc.devRef .tc main_v6)) (W (Proc.devRef .tc main_v29)) := by part
theorem layer2_arg5 : after layer2Ops W (Proc.devRef .tc main_arg5) = W (Proc.devRef .tc main_arg5) := kept W _ layer2_sub nw_arg5

/-! ## The output -/

theorem bias_y : after biasOps W (Proc.devRef .tc main_v64)
    = Cert.Spec.biased (W (Proc.devRef .tc main_v61)) (val_main_v62 (F := F) (W (Proc.devRef .tc main_arg5))) := by part

theorem max_r : after maxOps W (Proc.devRef .tc main_call2_v0)
    = Host.reduce FloatOps.maximumf (W (Proc.devRef .tc main_v64)) (val_main_call2_cst (F := F)) reducesTo_S100000x40_S100000_d1 h_S_ := by partC
theorem max_y : after maxOps W (Proc.devRef .tc main_v64) = W (Proc.devRef .tc main_v64) := by part
theorem max2_m : after max2Ops W (Proc.devRef .tc main_call2_v2)
    = maximumf (val_main_call2_v1 (F := F)) (W (Proc.devRef .tc main_call2_v0)) := by part
theorem max2_y : after max2Ops W (Proc.devRef .tc main_v64) = W (Proc.devRef .tc main_v64) := by part

theorem shift_s : after shiftOps W (Proc.devRef .tc main_call2_v5)
    = subf (W (Proc.devRef .tc main_v64)) (Cert.Spec.overRow (W (Proc.devRef .tc main_call2_v2))) := by part
theorem shift_e : after shiftOps W (Proc.devRef .tc main_call2_v6)
    = Host.exp (subf (W (Proc.devRef .tc main_v64)) (Cert.Spec.overRow (W (Proc.devRef .tc main_call2_v2)))) := by part

theorem log_result : after logOps W (Proc.devRef .tc main_v65)
    = subf (W (Proc.devRef .tc main_call2_v5))
        (broadcastInDim S100000x40 ![0, 1] bcast_S100000x1_S100000x40_0_1
          (Host.log (broadcastInDim S100000x1 ![0] bcast_S100000_S100000x1_0
            (Host.reduceAdd (W (Proc.devRef .tc main_call2_v6)) (val_main_call2_cst_1 (F := F)) reducesTo_S100000x40_S100000_d1 h_S_)))) := by part

/-- The output part whole: the log-softmax of the biased aggregation. -/
theorem out_result : after logOps (after shiftOps (after max2Ops (after maxOps (after biasOps W)))) (Proc.devRef .tc main_v65)
    = Cert.Spec.logSoftmax (Cert.Spec.biased (W (Proc.devRef .tc main_v61)) (val_main_v62 (F := F) (W (Proc.devRef .tc main_arg5)))) := by
  rw [log_result, shift_s, shift_e, max2_m, max2_y, max_r, max_y, bias_y]
  rfl

/-! ## The whole line -/

/-- The result buffer after the whole line: the reference's last stage of the arguments' contents. -/
theorem result_eq : after (ops (F := F)) W (Proc.devRef .tc main_v65)
    = val_main_v65 (F := F) (W (Proc.devRef .tc main_arg0)) (W (Proc.devRef .tc main_arg1)) (W (Proc.devRef .tc main_arg2))
        (W (Proc.devRef .tc main_arg3)) (W (Proc.devRef .tc main_arg4)) (W (Proc.devRef .tc main_arg5)) := by
  rw [ops_eq, after_append, after_append, after_append, after_append, after_append, after_append, after_append, out_result,
    layer2_agg, layer2_arg5, layer1_agg, layer1_row, layer1_col, layer1_norm, layer1_arg3, layer1_arg4, layer1_arg5,
    edge_row, edge_col, edge_norm, edge_arg0, edge_arg2, edge_arg3, edge_arg4, edge_arg5, Cert.Spec.result_eq]

theorem arg0_eq : after (ops (F := F)) W (Proc.devRef .tc main_arg0) = W (Proc.devRef .tc main_arg0) := kept W _ (fun _ h => h) nw_arg0
theorem arg1_eq : after (ops (F := F)) W (Proc.devRef .tc main_arg1) = W (Proc.devRef .tc main_arg1) := kept W _ (fun _ h => h) nw_arg1
theorem arg2_eq : after (ops (F := F)) W (Proc.devRef .tc main_arg2) = W (Proc.devRef .tc main_arg2) := kept W _ (fun _ h => h) nw_arg2
theorem arg3_eq : after (ops (F := F)) W (Proc.devRef .tc main_arg3) = W (Proc.devRef .tc main_arg3) := kept W _ (fun _ h => h) nw_arg3
theorem arg4_eq : after (ops (F := F)) W (Proc.devRef .tc main_arg4) = W (Proc.devRef .tc main_arg4) := kept W _ (fun _ h => h) nw_arg4
theorem arg5_eq : after (ops (F := F)) W (Proc.devRef .tc main_arg5) = W (Proc.devRef .tc main_arg5) := kept W _ (fun _ h => h) nw_arg5

/-- On every device, from any memory with zero counters: every weakly fair execution of @main terminates with the
    result at the reference's last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
        = val_main_v65 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefValue

end
-- ==== Proof.KRun.lean ====
/-
  The idealized kernel's run with its result NAMED. @main is eight segments — three stretches of host operations, then
  three pallas_calls with a stretch of host operations between each two — and the contents of every buffer at each
  segment boundary is a fold from the launch memory: a host stretch applies its operations, a pallas_call replaces its
  arrays by what its write-backs leave. Every weakly fair execution terminates, nothing faulting, in a state whose
  unscoped buffers hold the LAST boundary's contents; read at the result buffer that is the third pallas_call's output
  array after its ten write-backs, and read at an argument it is the launch memory (no segment writes an argument).
-/
import proofs.«117875_j72662256714549_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    argument arrays as launched. -/
theorem run_named : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.Edges.lean ====
/-
  The edge arrays as the first pallas_call finds them. Before it the host builds, from the [2, 1250000] edge list:
  `row` and `col` (its two rows, each followed by the 100,000 self loops 0 … 99999), the in-degree of every node (a
  sum of ones over `col`), `d = 1/√degree` where the degree is positive and 0 elsewhere, and `norm e = d (row e) · d (col e)`.
  The reference builds the same three arrays by the same operations, so each is that stage of the reference's run, as a
  function of the edge list. The two operands of the first pallas_call are the first two float arguments (a change of
  float format is the identity on the extended reals).
-/
import proofs.«117875_j72662256714549_2_alg».proof.Proof.Gen.KernelIdeal.Frame
import proofs.«117875_j72662256714549_2_alg».proof.Proof.RefRead
import Idealize.ShloMosaic.Lib.StableHlo.Run

set_option maxRecDepth 16384

noncomputable section

namespace Cert.KernelIdeal.Edges

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg) (c : Dev nD)

/-- The sources of the 1,350,000 edges. -/
theorem row_eq : W3 m ρ c (Proc.devRef .tc main_v3)
    = Cert.ReferenceIdeal.Read.val_main_v3 (F := F) (m ((c : Thread nD τ).loc main_arg1)) := by
  show StableHlo.after hostOps0_2 (StableHlo.after hostOps0_1 (StableHlo.after hostOps0 (W0 m ρ c))) (Proc.devRef .tc main_v3) = _
  after_results_simp <;> rfl

/-- Their targets. -/
theorem col_eq : W3 m ρ c (Proc.devRef .tc main_v6)
    = Cert.ReferenceIdeal.Read.val_main_v6 (F := F) (m ((c : Thread nD τ).loc main_arg1)) := by
  show StableHlo.after hostOps0_2 (StableHlo.after hostOps0_1 (StableHlo.after hostOps0 (W0 m ρ c))) (Proc.devRef .tc main_v6) = _
  after_results_simp <;> rfl

set_option maxHeartbeats 4000000 in
/-- Their symmetric normalisation weights. -/
theorem norm_eq : W3 m ρ c (Proc.devRef .tc main_v29)
    = Cert.ReferenceIdeal.Read.val_main_v29 (F := F) (m ((c : Thread nD τ).loc main_arg1)) := by
  show StableHlo.after hostOps0_2 (StableHlo.after hostOps0_1 (StableHlo.after hostOps0 (W0 m ρ c))) (Proc.devRef .tc main_v29) = _
  after_results_simp <;> rfl

/-- The first pallas_call's left operand is the first argument, rounded to the narrower float format. -/
theorem left_eq' : W3 m ρ c (Proc.devRef .tc main_v30) = truncf .bf16 (m ((c : Thread nD τ).loc main_arg0)) bitsLt_bf16_f32 := by
  show StableHlo.after hostOps0_2 (StableHlo.after hostOps0_1 (StableHlo.after hostOps0 (W0 m ρ c))) (Proc.devRef .tc main_v30) = _
  after_results_simp <;> rfl

/-- Its right operand is the third, rounded likewise. -/
theorem right_eq' : W3 m ρ c (Proc.devRef .tc main_v31) = truncf .bf16 (m ((c : Thread nD τ).loc main_arg2)) bitsLt_bf16_f32 := by
  show StableHlo.after hostOps0_2 (StableHlo.after hostOps0_1 (StableHlo.after hostOps0 (W0 m ρ c))) (Proc.devRef .tc main_v31) = _
  after_results_simp <;> rfl

/-- No host operation before the first pallas_call writes an argument. -/
theorem arg3_eq : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem arg4_eq : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem arg5_eq : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-! ## On the extended reals the rounding is the identity -/

section AtIdeal
variable (m : (ℓ : Loc nD τ sig) → Buf (Elt Ideal) ℓ) (ρ : Dev nD → PrngReg) (c : Dev nD)

theorem left_eq : W3 m ρ c (Proc.devRef .tc main_v30) = m ((c : Thread nD τ).loc main_arg0) :=
  (left_eq' m ρ c).trans rfl
theorem right_eq : W3 m ρ c (Proc.devRef .tc main_v31) = m ((c : Thread nD τ).loc main_arg2) :=
  (right_eq' m ρ c).trans rfl
end AtIdeal

end Cert.KernelIdeal.Edges

end
-- ==== Proof.Between.lean ====
/-
  The host operations between the pallas_calls, over ANY contents `W` of the buffers they start from. Between the first
  and the second: the aggregation of the first product's rows over the edges, the first bias as a [1, 64] row, and the
  second weight matrix (a change of float format, the identity on the extended reals). Between the second and the
  third: the aggregation of the second product's rows, and the second bias as a [1, 40] row. Each result is the
  reference's function of the buffers it reads; a buffer these operations do not write keeps its contents.
-/
import proofs.«117875_j72662256714549_2_alg».proof.Proof.Gen.KernelIdeal.Launch
import proofs.«117875_j72662256714549_2_alg».proof.Proof.Spec
import Idealize.ShloMosaic.Lib.StableHlo.Run
import Idealize.ShloMosaic.Lib.Pipeline.Value

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable (W : Valuation τ sig (Elt Ideal))

/-- A rank-1 array viewed as one row is the row's broadcast along a new leading axis of extent one. -/
theorem asRow64 (x : S64.Idx → EReal) :
    shapeCast S1x64 x shapeCasts_S64_S1x64 = Cert.ReferenceIdeal.Read.val_main_v44 (F := Ideal) x := by
  funext i
  rw [Cert.ReferenceIdeal.Read.val_main_v44_apply]
  refine (shapeCast_addUnit_apply ![64] x shapeCasts_S64_S1x64 i).trans (congrArg x (funext fun a => Fin.ext ?_))
  match a with
  | ⟨0, _⟩ => rfl
theorem asRow40 (x : S40.Idx → EReal) :
    shapeCast S1x40 x shapeCasts_S40_S1x40 = Cert.ReferenceIdeal.Read.val_main_v62 (F := Ideal) x := by
  funext i
  rw [Cert.ReferenceIdeal.Read.val_main_v62_apply]
  refine (shapeCast_addUnit_apply ![40] x shapeCasts_S40_S1x40 i).trans (congrArg x (funext fun a => Fin.ext ?_))
  match a with
  | ⟨0, _⟩ => rfl

/-! ## Between the first and the second pallas_call -/

theorem agg64_eq : StableHlo.after hostOps1 W (Proc.devRef .tc main_v45)
    = Cert.Spec.aggregate64 (F := Ideal) (W (Proc.devRef .tc main_v32)) (W (Proc.devRef .tc main_v3))
        (W (Proc.devRef .tc main_v6)) (W (Proc.devRef .tc main_v29)) := by
  after_results_simp <;> rfl

theorem bias64_eq : StableHlo.after hostOps1 W (Proc.devRef .tc main_v46)
    = Cert.ReferenceIdeal.Read.val_main_v44 (F := Ideal) (W (Proc.devRef .tc main_arg3)) := by
  after_results_simp
  exact asRow64 _

theorem weight2_eq : StableHlo.after hostOps1 W (Proc.devRef .tc main_v47) = W (Proc.devRef .tc main_arg4) := by
  after_results_simp <;> rfl

theorem keep1_row : StableHlo.after hostOps1 W (Proc.devRef .tc main_v3) = W (Proc.devRef .tc main_v3) := by
  after_results_simp <;> rfl
theorem keep1_col : StableHlo.after hostOps1 W (Proc.devRef .tc main_v6) = W (Proc.devRef .tc main_v6) := by
  after_results_simp <;> rfl
theorem keep1_norm : StableHlo.after hostOps1 W (Proc.devRef .tc main_v29) = W (Proc.devRef .tc main_v29) := by
  after_results_simp <;> rfl
theorem keep1_arg5 : StableHlo.after hostOps1 W (Proc.devRef .tc main_arg5) = W (Proc.devRef .tc main_arg5) := by
  after_results_simp <;> rfl

/-! ## Between the second and the third pallas_call -/

theorem agg40_eq : StableHlo.after hostOps2 W (Proc.devRef .tc main_v61)
    = Cert.Spec.aggregate40 (F := Ideal) (W (Proc.devRef .tc main_v48)) (W (Proc.devRef .tc main_v3))
        (W (Proc.devRef .tc main_v6)) (W (Proc.devRef .tc main_v29)) := by
  after_results_simp <;> rfl

theorem bias40_eq : StableHlo.after hostOps2 W (Proc.devRef .tc main_v62)
    = Cert.ReferenceIdeal.Read.val_main_v62 (F := Ideal) (W (Proc.devRef .tc main_arg5)) := by
  after_results_simp
  exact asRow40 _

end Cert.KernelIdeal.Between

end
-- ==== Proof.Region0.lean ====
/-
  What the first pallas_call leaves in its output array. Its grid has ten points; point `t` reads rows
  `10000·t … 10000·t + 9999` of the left operand (a [100000, 64] array), the whole [64, 64] right operand, and writes
  the same rows of the [100000, 64] output: entry `(r, q)` of the block is `Σ_k left (r, k) · right (k, q)` — a matrix
  product into a zero accumulator is that plain sum on the extended reals. The ten blocks tile the output (row `R` lies
  in block `R / 10000`), so the whole array ends at the one matrix product of the two whole operands, which is what the
  reference's `dot_general` is at an index: the sum over `k` of `left (R, k) · right (k, q)`.
-/
import proofs.«117875_j72662256714549_2_alg».proof.Proof.Gen.KernelIdeal.Frame
import proofs.«117875_j72662256714549_2_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body's stored value at an index -/

/-- Row `j 0` of the left block, at column `k`. -/
abbrev leftAt (j : S10000x64.Idx) (k : Fin 64) : S10000x64.Idx := fun a => match a with
  | ⟨0, _⟩ => ⟨(j 0).val, (j 0).isLt⟩
  | ⟨1, _⟩ => ⟨k.val, k.isLt⟩
/-- Column `j 1` of the right operand, at row `k`. -/
abbrev rightAt (j : S10000x64.Idx) (k : Fin 64) : S64x64.Idx := fun a => match a with
  | ⟨0, _⟩ => ⟨k.val, k.isLt⟩
  | ⟨1, _⟩ => ⟨(j 1).val, (j 1).isLt⟩

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The stored block at `j`: the sum over `k` of the left block's row against the right operand's column. -/
theorem stored_apply (x0 : FVec Ideal S10000x64 .bf16) (x1 : FVec Ideal S64x64 .bf16) (j : S10000x64.Idx) :
    k0_pay1 (F := Ideal) x0 x1 j = ∑ k : Fin 64, x0 (leftAt j k) * x1 (rightAt j k) := by
  unfold k0_pay1
  rw [shapeCast_self, shapeCast_self]
  refine (Ideal.matmul_constant_zero_apply dot_S10000x64_S64x64_S10000x64_1_0_0_1_n_n none x0 x1 j).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = leftAt j k := funext fun a => Fin.ext (by
    match a with
    | ⟨0, _⟩ => exact lhs_0 _ _
    | ⟨1, _⟩ => exact (lhs_1 _ _).trans hk)
  have er : dot_S10000x64_S64x64_S10000x64_1_0_0_1_n_n.rhsIdx j ((ValueIdx.contrEquiv1 dot_S10000x64_S64x64_S10000x64_1_0_0_1_n_n 64 rfl rfl).symm k) = rightAt j k := funext fun a => Fin.ext (by
    match a with
    | ⟨0, _⟩ => exact (rhs_0 _ _).trans hk
    | ⟨1, _⟩ => exact rhs_1 _ _)
  rw [el, er]

/-! ## From the ten blocks to the array -/

variable (V : (c : Dev nD) → (b : Ref sig .tc) → Buf (Elt Ideal) ((c : Thread nD τ).loc b))

/-- The whole-array product of the two operand arrays as the region finds them. -/
abbrev product (c : Dev nD) : S100000x64.Idx → EReal :=
  Cert.ReferenceIdeal.Read.val_main_v30 (F := Ideal) (V c main_v30) (V c main_v31)

/-- The printed index maps over the grid: the left operand's and the output's blocks move together down the rows, at
    column block 0; the right operand is one block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole-array product. -/
theorem flushed_eq (c : Dev nD) (t : Fin cfg0.N) :
    (dat0 (F := Ideal) V c).flushed 2 t = ((cfg0.win 2).blk t).view.read (Elt Ideal) (product V c) := by
  show (cfg0.win 2).cut (grid0.coords t) ((dat0 (F := Ideal) V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  show k0_pay1 (F := Ideal) (iblk0 V c 0 t) (iblk0 V c 1 t) j = product V c (((cfg0.win 2).blk t).view.emb j)
  refine (stored_apply (iblk0 V c 0 t) (iblk0 V c 1 t) j).trans ?_
  refine Eq.trans ?_ (Cert.ReferenceIdeal.Read.val_main_v30_apply (V c main_v30) (V c main_v31) _).symm
  refine Finset.sum_congr rfl fun k _ => ?_
  have h0 : ((cfg0.win 0).blk t).view.emb (leftAt j k) = Cert.ReferenceIdeal.Read.lidx_main_v30 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (rightAt j k) = Cert.ReferenceIdeal.Read.ridx_main_v30 (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  exact congrArg₂ (fun a b : EReal => a * b) (congrArg (V c main_v30) h0) (congrArg (V c main_v31) h1)

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The ten blocks cover the output array: row `R` is in the block of the point whose row block is `R / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE OUTPUT ARRAY after the ten write-backs is the product of the two operand arrays as the region finds them. -/
theorem value (c : Dev nD) : (dat0 (F := Ideal) V c).arrAt 2 cfg0.N = product V c :=
  (dat0 (F := Ideal) V c).arrAt_eq_of_cover 2 (product V c) (fun t _ => flushed_eq V c t) (cover)

end Cert.KernelIdeal.Region0

end
-- ==== Proof.Region1.lean ====
/-
  REGION 1, the hidden layer. The rows of the [100000, 64] aggregation are tiled into ten blocks of 10000 rows; at grid
  point t the body reads rows 10000·t … 10000·t + 9999 of the aggregation, the whole [1, 64] bias row and the whole
  [64, 40] weight matrix, and stores, at row p and column q of its [10000, 40] block,

      Σ_k max (agg[10000·t + p, k] + bias[0, k], 0) · W[k, q]

  (a product into a zero accumulator is a plain sum over the contracted axis, and a change of float format is the
  identity on extended reals). The reference's hidden layer, a dot_general of the rectified biased aggregation with the
  weights, is the same sum at every index of the [100000, 40] array. Every row r lies in the block of point r / 10000,
  so after the ten write-backs the output array is the reference's function of the three input arrays.
-/
import proofs.«117875_j72662256714549_2_alg».proof.Proof.Spec
import proofs.«117875_j72662256714549_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## The reference's hidden layer at an index -/

/-- The reference's product at row r, column q: the sum over k of the left operand at (r, k) times the right operand
    at (k, q). -/
theorem refDot_apply (y : FVec Ideal Cert.ReferenceIdeal.S100000x64 .f32)
    (w : FVec Ideal Cert.ReferenceIdeal.S64x40 .f32) (i : Cert.ReferenceIdeal.S100000x40.Idx)
    (r : Fin 100000) (q : Fin 40) (hr : (i 0).val = r.val) (hq : (i 1).val = q.val) :
    Host.dotGeneral (F := Ideal) (φ₁ := .f32) (φ₂ := .f32) Cert.ReferenceIdeal.dot_S100000x64_S64x40_S100000x40_1_0_0_1_n_n none y w i = ∑ k : Fin 64, y (ix2 r k) * w (ix2 k q) := by
  simp only [Host.dotGeneral]
  rw [Ideal.dotGeneral_apply, ← Equiv.sum_comp (contrEquiv1 Cert.ReferenceIdeal.dot_S100000x64_S64x40_S100000x40_1_0_0_1_n_n 64 rfl rfl).symm]
  refine Finset.sum_congr rfl fun k _ => ?_
  have hk := contrEquiv1_symm_val Cert.ReferenceIdeal.dot_S100000x64_S64x40_S100000x40_1_0_0_1_n_n 64 rfl rfl k
  have el : Cert.ReferenceIdeal.dot_S100000x64_S64x40_S100000x40_1_0_0_1_n_n.lhsIdx i ((contrEquiv1 Cert.ReferenceIdeal.dot_S100000x64_S64x40_S100000x40_1_0_0_1_n_n 64 rfl rfl).symm k) = ix2 r k := funext fun ax => Fin.ext (by
    match ax with
    | ⟨0, _⟩ => exact (Cert.ReferenceIdeal.Read.lhs_main_v48_0 _ _).trans hr
    | ⟨1, _⟩ => exact (Cert.ReferenceIdeal.Read.lhs_main_v48_1 _ _).trans hk)
  have er : Cert.ReferenceIdeal.dot_S100000x64_S64x40_S100000x40_1_0_0_1_n_n.rhsIdx i ((contrEquiv1 Cert.ReferenceIdeal.dot_S100000x64_S64x40_S100000x40_1_0_0_1_n_n 64 rfl rfl).symm k) = ix2 k q := funext fun ax => Fin.ext (by
    match ax with
    | ⟨0, _⟩ => exact (Cert.ReferenceIdeal.Read.rhs_main_v48_0 _ _).trans hk
    | ⟨1, _⟩ => exact (Cert.ReferenceIdeal.Read.rhs_main_v48_1 _ _).trans hq)
  rw [el, er]

/-- The bias row broadcast over the 100000 rows, read at (r, k), is the row's entry k. -/
theorem refBias_apply (b : (⟨Cert.ReferenceIdeal.S1x64, .f32⟩ : BufTy).Contents (Elt Ideal)) (r : Fin 100000) (k : Fin 64) :
    broadcastInDim Cert.ReferenceIdeal.S100000x64 ![0, 1] Cert.ReferenceIdeal.Gen.bcast_S1x64_S100000x64_0_1 b (ix2 r k)
      = b (ix2 (0 : Fin 1) k) :=
  broadcastInDim_apply _ Cert.ReferenceIdeal.Gen.bcast_S1x64_S100000x64_0_1 b (ix2 r k) (ix2 (0 : Fin 1) k) (fun ax => match ax with
    | ⟨0, _⟩ => by show 0 = if (1 : Nat) = 1 then 0 else r.val; rw [if_pos rfl]
    | ⟨1, _⟩ => by show k.val = if (64 : Nat) = 1 then 0 else k.val; rw [if_neg (by decide)])

/-- The reference's zero splat at any index is the zero word's value. -/
theorem refZero_apply (j : Cert.ReferenceIdeal.S100000x64.Idx) :
    Cert.ReferenceIdeal.Read.val_main_call1_v0 (F := Ideal) j = Ideal.ofBits .f32 0x00000000#32 := by
  rw [Cert.ReferenceIdeal.Read.val_main_call1_v0_apply, Cert.ReferenceIdeal.Read.val_main_call1_cst_apply]
  rfl

/-- The reference's hidden layer at row r, column q: the sum over k of max (a[r,k] + b[0,k]) 0 · w[k,q]. -/
theorem hidden_apply (a : (⟨Cert.ReferenceIdeal.S100000x64, .f32⟩ : BufTy).Contents (Elt Ideal))
    (b : (⟨Cert.ReferenceIdeal.S1x64, .f32⟩ : BufTy).Contents (Elt Ideal))
    (w : (⟨Cert.ReferenceIdeal.S64x40, .f32⟩ : BufTy).Contents (Elt Ideal)) (i : Cert.ReferenceIdeal.S100000x40.Idx)
    (r : Fin 100000) (q : Fin 40) (hr : (i 0).val = r.val) (hq : (i 1).val = q.val) :
    Cert.Spec.hidden (F := Ideal) a b w i
      = ∑ k : Fin 64, max (a (ix2 r k) + b (ix2 (0 : Fin 1) k)) (Ideal.ofBits .f32 0x00000000#32) * w (ix2 k q) := by
  unfold Cert.Spec.hidden
  refine (refDot_apply _ w i r q hr hq).trans ?_
  refine Finset.sum_congr rfl fun k _ => ?_
  rw [maximumf_apply, addf_apply, refBias_apply, refZero_apply]

/-! ## The contraction's operand indices

At output index i and contraction index κ the left operand is read at row (i 0), column κ, and the right operand at
row κ, column (i 1). -/

theorem lhs_0 (i : S10000x40.Idx) (κ : dot_S10000x64_S64x40_S10000x40_1_0_0_1_n_n.contr.Idx) :
    (dot_S10000x64_S64x40_S10000x40_1_0_0_1_n_n.lhsIdx i κ 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhs_1 (i : S10000x40.Idx) (κ : dot_S10000x64_S64x40_S10000x40_1_0_0_1_n_n.contr.Idx) :
    (dot_S10000x64_S64x40_S10000x40_1_0_0_1_n_n.lhsIdx i κ 1).val = (κ ⟨0, by decide⟩).val :=
  dot_S10000x64_S64x40_S10000x40_1_0_0_1_n_n.lhsIdx_val_of_single rfl i κ
theorem rhs_0 (i : S10000x40.Idx) (κ : dot_S10000x64_S64x40_S10000x40_1_0_0_1_n_n.contr.Idx) :
    (dot_S10000x64_S64x40_S10000x40_1_0_0_1_n_n.rhsIdx i κ 0).val = (κ ⟨0, by decide⟩).val :=
  dot_S10000x64_S64x40_S10000x40_1_0_0_1_n_n.rhsIdx_val_of_single rfl i κ
theorem rhs_1 (i : S10000x40.Idx) (κ : dot_S10000x64_S64x40_S10000x40_1_0_0_1_n_n.contr.Idx) :
    (dot_S10000x64_S64x40_S10000x40_1_0_0_1_n_n.rhsIdx i κ 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

theorem lhsIdx_eq (p : Fin 10000) (q : Fin 40) (k : Fin 64) :
    dot_S10000x64_S64x40_S10000x40_1_0_0_1_n_n.lhsIdx (ix2 p q) ((contrEquiv1 dot_S10000x64_S64x40_S10000x40_1_0_0_1_n_n 64 rfl rfl).symm k) = ix2 p k := by
  have hk := contrEquiv1_symm_val dot_S10000x64_S64x40_S10000x40_1_0_0_1_n_n 64 rfl rfl k
  exact funext fun a => Fin.ext (by
    match a with
    | ⟨0, _⟩ => exact lhs_0 _ _
    | ⟨1, _⟩ => exact (lhs_1 _ _).trans hk)

theorem rhsIdx_eq (p : Fin 10000) (q : Fin 40) (k : Fin 64) :
    dot_S10000x64_S64x40_S10000x40_1_0_0_1_n_n.rhsIdx (ix2 p q) ((contrEquiv1 dot_S10000x64_S64x40_S10000x40_1_0_0_1_n_n 64 rfl rfl).symm k) = ix2 k q := by
  have hk := contrEquiv1_symm_val dot_S10000x64_S64x40_S10000x40_1_0_0_1_n_n 64 rfl rfl k
  exact funext fun a => Fin.ext (by
    match a with
    | ⟨0, _⟩ => exact (rhs_0 _ _).trans hk
    | ⟨1, _⟩ => exact rhs_1 _ _)

/-! ## The body's stored value at an index -/

/-- Row p, column q of what the body stores: the sum over k of max (x0[p,k] + x1[0,k]) 0 · x2[k,q]. The bias row is
    broadcast over the rows, the rectifier is a maximum with zero, the change of format is the identity on extended
    reals, and the product into a zero accumulator is a plain sum over the contracted axis. -/
theorem pay_apply (x0 : FVec Ideal S10000x64 .f32) (x1 : FVec Ideal S1x64 .f32) (x2 : FVec Ideal S64x40 .bf16)
    (p : Fin 10000) (q : Fin 40) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  simp only [shapeCast_self]
  refine (Ideal.matmul_constant_zero_apply (φ₁ := .bf16) (φ₂ := .bf16) dot_S10000x64_S64x40_S10000x40_1_0_0_1_n_n none _ x2 (ix2 p q)).trans ?_
  rw [← Equiv.sum_comp (contrEquiv1 dot_S10000x64_S64x40_S10000x40_1_0_0_1_n_n 64 rfl rfl).symm]
  refine Finset.sum_congr rfl fun k _ => ?_
  rw [lhsIdx_eq, rhsIdx_eq]
  rw [truncf_apply, maximumf_apply, addf_apply, broadcast_apply, broadcastTo_1b_ab_apply]
  rfl

/-! ## The windows' blocks at a grid point

Grid point t holds rows 10000·t … 10000·t + 9999 of the row-tiled arrays (windows 0 and 3); the bias row and the
weight matrix (windows 1 and 2) are one whole block at block index (0, 0) at every point. A block's coordinate in its
array is always block index × block size + the coordinate inside the block. -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point t, row p, column k, is the aggregation's row 10000·t + p, column k. -/
theorem blk0_apply (c : Dev nD) (t : Fin cfg1.N) (p : Fin 10000) (k : Fin 64) (r : Fin 100000)
    (hr : r.val = 10000 * t.val + p.val) :
    (iblk1 V c 0 t : FVec Ideal S10000x64 .f32) (ix2 p k) = (V c main_v45 : S100000x64.Idx → EReal) (ix2 r k) := by
  obtain ⟨e0, e1, -⟩ := idx_facts t
  unfold iblk1
  show (V c main_v45 : S100000x64.Idx → EReal) (((cfg1.win 0).blk t).view.emb (ix2 p k)) = _
  refine congrArg (V c main_v45 : S100000x64.Idx → EReal) (funext fun a => Fin.ext ?_)
  match a with
  | ⟨0, _⟩ => show win1_0.index t (0 : Fin 2) * 10000 + 1 * p.val = r.val; omega
  | ⟨1, _⟩ => show win1_0.index t (1 : Fin 2) * 64 + 1 * k.val = k.val; omega

/-- Window 1's block at any point is the whole bias row. -/
theorem blk1_apply (c : Dev nD) (t : Fin cfg1.N) (k : Fin 64) :
    (iblk1 V c 1 t : FVec Ideal S1x64 .f32) (ix2 (0 : Fin 1) k) = (V c main_v46 : S1x64.Idx → EReal) (ix2 (0 : Fin 1) k) := by
  obtain ⟨-, -, e0, e1, -⟩ := idx_facts t
  unfold iblk1
  show (V c main_v46 : S1x64.Idx → EReal) (((cfg1.win 1).blk t).view.emb (ix2 (0 : Fin 1) k)) = _
  refine congrArg (V c main_v46 : S1x64.Idx → EReal) (funext fun a => Fin.ext ?_)
  match a with
  | ⟨0, _⟩ => show win1_1.index t (0 : Fin 2) * 1 + 1 * (0 : Fin 1).val = (0 : Fin 1).val; omega
  | ⟨1, _⟩ => show win1_1.index t (1 : Fin 2) * 64 + 1 * k.val = k.val; omega

/-- Window 2's block at any point is the whole weight matrix. -/
theorem blk2_apply (c : Dev nD) (t : Fin cfg1.N) (k : Fin 64) (q : Fin 40) :
    (iblk1 V c 2 t : FVec Ideal S64x40 .bf16) (ix2 k q) = (V c main_v47 : S64x40.Idx → EReal) (ix2 k q) := by
  obtain ⟨-, -, -, -, e0, e1, -⟩ := idx_facts t
  unfold iblk1
  show (V c main_v47 : S64x40.Idx → EReal) (((cfg1.win 2).blk t).view.emb (ix2 k q)) = _
  refine congrArg (V c main_v47 : S64x40.Idx → EReal) (funext fun a => Fin.ext ?_)
  match a with
  | ⟨0, _⟩ => show win1_2.index t (0 : Fin 2) * 64 + 1 * k.val = k.val; omega
  | ⟨1, _⟩ => show win1_2.index t (1 : Fin 2) * 40 + 1 * q.val = q.val; omega

/-! ## What a grid point writes back, and the whole array -/

/-- The staging buffer the body leaves, at row p and column q, over ANY three blocks x0 x1 x2 that read arrays A B W
    as the hypotheses say: row r of A enters through row p of x0. -/
theorem out_apply (A : S100000x64.Idx → EReal) (B : S1x64.Idx → EReal) (W : S64x40.Idx → EReal)
    (x0 : FVec Ideal S10000x64 .f32) (x1 : FVec Ideal S1x64 .f32) (x2 : FVec Ideal S64x40 .bf16)
    (p : Fin 10000) (q : Fin 40) (r : Fin 100000)
    (h0 : ∀ k : Fin 64, x0 (ix2 p k) = A (ix2 r k))
    (h1 : ∀ k : Fin 64, x1 (ix2 (0 : Fin 1) k) = B (ix2 (0 : Fin 1) k))
    (h2 : ∀ k : Fin 64, x2 (ix2 k q) = W (ix2 k q)) :
    out1_3 (F := Ideal) x0 x1 x2 (ix2 p q)
      = ∑ k : Fin 64, max (A (ix2 r k) + B (ix2 (0 : Fin 1) k)) (Ideal.ofBits .f32 0x00000000#32) * W (ix2 k q) := by
  unfold out1_3
  rw [View.canon_unit_zero hz]
  simp only [View.ld_unit_zero (S := S10000x64) hz, View.ld_unit_zero (S := S1x64) hz, View.ld_unit_zero (S := S64x40) hz]
  refine (pay_apply x0 x1 x2 p q).trans ?_
  refine Finset.sum_congr rfl fun k _ => ?_
  rw [h0 k, h1 k, h2 k]

/-- Point t's staging buffer at block index j is the reference's hidden layer, of the three arrays as the region
    finds them, at the array index j sits at. -/
theorem out_eq_hidden (c : Dev nD) (t : Fin cfg1.N) (j : S10000x40.Idx) :
    out1_3 (F := Ideal) (iblk1 V c 0 t) (iblk1 V c 1 t) (iblk1 V c 2 t) j
      = Cert.Spec.hidden (F := Ideal) (V c main_v45) (V c main_v46) (V c main_v47) (((cfg1.win 3).blk t).view.emb j) := by
  obtain ⟨p, q, rfl⟩ : ∃ (p : Fin 10000) (q : Fin 40), j = ix2 p q := ⟨j 0, j 1, eq_ix2 j⟩
  obtain ⟨-, -, -, -, -, -, e0, e1⟩ := idx_facts t
  have hN : grid1.N = 10 := N_1
  have ht : t.val < 10 := by have h : t.val < grid1.N := t.isLt; omega
  have h0 : ((((cfg1.win 3).blk t).view.emb (ix2 p q)) 0).val = 10000 * t.val + p.val := by
    show win1_3.index t (0 : Fin 2) * 10000 + 1 * p.val = _; omega
  have h1 : ((((cfg1.win 3).blk t).view.emb (ix2 p q)) 1).val = q.val := by
    show win1_3.index t (1 : Fin 2) * 40 + 1 * q.val = _; omega
  have hr : 10000 * t.val + p.val < 100000 := by have := p.isLt; omega
  refine (out_apply (V c main_v45) (V c main_v46) (V c main_v47) (iblk1 V c 0 t) (iblk1 V c 1 t) (iblk1 V c 2 t) p q
    ⟨10000 * t.val + p.val, hr⟩ (fun k => blk0_apply V c t p k ⟨10000 * t.val + p.val, hr⟩ rfl) (fun k => blk1_apply V c t k)
    (fun k => blk2_apply V c t k q)).trans ?_
  exact (hidden_apply (V c main_v45) (V c main_v46) (V c main_v47) (((cfg1.win 3).blk t).view.emb (ix2 p q))
    ⟨10000 * t.val + p.val, hr⟩ q h0 h1).symm

/-- What point t writes back is block t of the reference's hidden layer of the three arrays. -/
theorem flushed_eq (c : Dev nD) (t : Fin cfg1.N) :
    (dat1 V c).flushed 3 t = ((cfg1.win 3).blk t).view.read (Elt Ideal)
      (Cert.Spec.hidden (F := Ideal) (V c main_v45) (V c main_v46) (V c main_v47)) := by
  show (cfg1.win 3).cut (grid1.coords t) ((dat1 V c).after 3 t) = _
  rw [after1_3]
  funext j
  exact out_eq_hidden V c t j

/-- An index of the output array is in point t's block iff each coordinate is in the block's range on its axis. -/
theorem mem_blk (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v48).slice (win1_3.rect t)).set ↔ _
  rw [View.set_slice_whole, Rect.mem_set_unit]
  exact Iff.rfl

/-- Every row r of the output array lies in the block of point r / 10000. -/
theorem cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hN : grid1.N = 10 := N_1
  have hlt : (i 0).val / 10000 < grid1.N := by rw [hN]; omega
  obtain ⟨-, -, -, -, -, -, e0, e1⟩ := idx_facts ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, hlt⟩ (1 : Fin 2) * 40 ≤ (i 1).val ∧ (i 1).val < win1_3.index ⟨(i 0).val / 10000, hlt⟩ (1 : Fin 2) * 40 + 40
    rw [e1]; omega

/-- THE ARRAY window 3 ends holding, at any contents V the region is entered with: the reference's hidden layer of the
    aggregation, the bias row and the weights as the region finds them. -/
theorem value (c : Dev nD) :
    (dat1 (F := Ideal) V c).arrAt 3 cfg1.N = Cert.Spec.hidden (F := Ideal) (V c main_v45) (V c main_v46) (V c main_v47) :=
  (dat1 V c).arrAt_eq_of_cover 3 _ (fun t _ => flushed_eq V c t) cover

end Cert.KernelIdeal.Region1

end
-- ==== Proof.Region2.lean ====
/-
  The value of the third pallas_call of the idealized kernel: the row-wise log-softmax of a [100000, 40] array plus a
  [1, 40] bias row.

  The call tiles the 100000 rows into ten blocks of 10000 rows; grid point `t` holds rows `10000·t … 10000·t + 9999` of
  the input and of the result, and the bias row whole. On one block the body computes, for each row `p` with entries
  `y k = x (p, k) + b (0, k)`, the row maximum `M = max (−∞, y 0, …, y 39)`, the shifted row `y k − M`, the sum
  `S = Σ_k exp (y k − M)` and stores `(y q − M) − log S` at `(p, q)`. Every quantity is an extended real and every
  operation the exact one, so a row of the result depends on that row of the input and on the bias only: the ten blocks are
  the restrictions of ONE function of the two whole arrays (`lsmArr`), the blocks cover every row (row `r` lies in the
  block of point `r / 10000`), and therefore the result array ends holding that function.

  The reference spells the same function with host operations over the whole arrays: a broadcast of the bias over the
  rows, a reduce-max from `−∞` followed by one more maximum against `−∞` (which changes nothing, the fold already being
  at least its starting value), two broadcasts of the per-row value over the row, a reduce-add from `0`, and the same
  subtractions, exponential and logarithm. Read at an index `(r, q)` both spellings are the same expression `rowLSM` of
  row `r`; no law of arithmetic beyond `0 + s = s` and `max c (max c …) = max c …` is used, and no finiteness.
-/
import proofs.«117875_j72662256714549_2_alg».proof.Proof.Spec
import proofs.«117875_j72662256714549_2_alg».proof.Proof.Gen.KernelIdeal.Frame
import Idealize.ShloMosaic.Lib.Pipeline.Value
import Idealize.ShloMosaic.Lib.ValueLayout
import Idealize.ShloMosaic.PureOps.Ideal.Laws

noncomputable section

open Idealize.ShloMosaic Idealize.ShloMosaic.ValueIdx Idealize.ShloMosaic.TcCoe Idealize.SL.Sem
open Idealize.ShloMosaic.Pipeline (Dat)
open scoped BigOperators

namespace Cert.KernelIdeal.Region2

open Cert.KernelIdeal Cert.KernelIdeal.Gen

/-! ## Two keepdims layout forms read at an index -/

/-- A vector of `a` entries viewed as a column `[a, 1]` reads, at `(p, u)`, its entry `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the second axis to `[a, b]` reads, at `(p, q)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The two row reductions read at a row -/

/-- The index a one-axis reduction over the columns inserts: row `p`, column `k`. -/
theorem lift_row (h : S10000x40.Reduces [1] S10000) (p : Fin 10000) (k : Fin 40) : h.lift (ix1 p) k = ix2 p k := by
  funext a; apply Fin.ext
  match a with
  | ⟨0, _⟩ => rfl
  | ⟨1, _⟩ => rfl

/-- A row maximum: the fold of `max` from the accumulator's value over the row's 40 entries. -/
theorem rowmax_apply (v : FVec Ideal S10000x40 .f32) (acc : BitVec 32) (h : S10000x40.Reduces [1] S10000) (hφ : FKind.Formats .f32)
    (hacc : acc = FKind.maximumf.neutral .f32 hφ) (p : Fin 10000) :
    multiReduction .maximumf [1] S10000 v acc h hφ hacc (ix1 p)
      = (Finset.univ : Finset (Fin 40)).fold max (Ideal.ofBits .f32 acc) (fun k => v (ix2 p k)) := by
  refine (Ideal.multiReduction_maximumf_single v acc h hφ hacc (ix1 p)).trans ?_
  show (Finset.univ : Finset (Fin 40)).fold max (Ideal.ofBits .f32 acc) (v ∘ h.lift (ix1 p)) = _
  exact congrArg (fun f => (Finset.univ : Finset (Fin 40)).fold max (Ideal.ofBits .f32 acc) f)
    (funext fun k => congrArg v (lift_row h p k))

/-- A row sum: the sum of the row's 40 entries. -/
theorem rowsum_apply (v : FVec Ideal S10000x40 .f32) (acc : BitVec 32) (h : S10000x40.Reduces [1] S10000) (hφ : FKind.Formats .f32)
    (hacc : acc = FKind.add.neutral .f32 hφ) (p : Fin 10000) :
    multiReduction .add [1] S10000 v acc h hφ hacc (ix1 p) = ∑ k : Fin 40, v (ix2 p k) := by
  refine (Ideal.multiReduction_add_single v acc h hφ hacc (ix1 p)).trans ?_
  show ∑ k : Fin 40, v (h.lift (ix1 p) k) = _
  exact Finset.sum_congr rfl fun k _ => congrArg v (lift_row h p k)

/-! ## One row's log-softmax -/

/-- The log-softmax of one row `y` of 40 extended reals, the row maximum taken as a fold of `max` from `c`:
    `(y q − M) − log (∑ₖ exp (y k − M))` with `M = max (c, y 0, …, y 39)`. -/
def rowLSM (c : EReal) (y : Fin 40 → EReal) (q : Fin 40) : EReal :=
  (y q - (Finset.univ : Finset (Fin 40)).fold max c y)
    - Ideal.log (∑ k : Fin 40, Ideal.exp (y k - (Finset.univ : Finset (Fin 40)).fold max c y))

/-- The body's arithmetic on a block `Y` of 10000 rows, read at `(p, q)`: the log-softmax of row `p` at column `q`. -/
theorem block_lsm_apply (Y : FVec Ideal S10000x40 .f32) (hred : S10000x40.Reduces [1] S10000) (hsc : S10000.ShapeCasts S10000x1)
    (hbc : S10000x1.Broadcasts S10000x40) (hφ : FKind.Formats .f32)
    (hm : (0xFF800000#32 : BitVec 32) = FKind.maximumf.neutral .f32 hφ) (ha : (0x00000000#32 : BitVec 32) = FKind.add.neutral .f32 hφ)
    (p : Fin 10000) (q : Fin 40) :
    subf (subf Y (broadcastTo S10000x40 (shapeCast S10000x1 (multiReduction .maximumf [1] S10000 Y 0xFF800000#32 hred hφ hm) hsc) hbc))
        (broadcastTo S10000x40 (log (shapeCast S10000x1 (multiReduction .add [1] S10000
          (exp (subf Y (broadcastTo S10000x40 (shapeCast S10000x1 (multiReduction .maximumf [1] S10000 Y 0xFF800000#32 hred hφ hm) hsc) hbc)))
          0x00000000#32 hred hφ ha) hsc)) hbc) (ix2 p q)
      = rowLSM (Ideal.ofBits .f32 0xFF800000#32) (fun k => Y (ix2 p k)) q := by
  have hM : ∀ k : Fin 40, broadcastTo S10000x40 (shapeCast S10000x1 (multiReduction .maximumf [1] S10000 Y 0xFF800000#32 hred hφ hm) hsc) hbc (ix2 p k)
      = (Finset.univ : Finset (Fin 40)).fold max (Ideal.ofBits .f32 0xFF800000#32) (fun k => Y (ix2 p k)) := fun k =>
    (broadcastTo_a1_ab_apply _ hbc p k).trans ((shapeCast_a_a1_apply _ hsc p 0).trans (rowmax_apply Y _ hred hφ hm p))
  rw [subf_apply, subf_apply, hM q, broadcastTo_a1_ab_apply _ hbc p q]
  show _ - Ideal.log (shapeCast S10000x1 _ hsc (ix2 p (0 : Fin 1))) = _
  rw [shapeCast_a_a1_apply _ hsc p 0, rowsum_apply _ _ hred hφ ha p]
  unfold rowLSM
  refine congrArg (fun s => _ - Ideal.log s) (Finset.sum_congr rfl fun k _ => ?_)
  show Ideal.exp (subf Y _ (ix2 p k)) = _
  rw [subf_apply, hM k]

/-- The payload of the body's one store, read at `(p, q)` of the block: the log-softmax, at column `q`, of row `p` of the
    first block plus the second block's one row. -/
theorem pay_apply (x0 : Vec Ideal S10000x40 .f32) (x1 : Vec Ideal S1x40 .f32) (p : Fin 10000) (q : Fin 40) :
    k2_pay1 x0 x1 (ix2 p q)
      = rowLSM (Ideal.ofBits .f32 0xFF800000#32) (fun k => x0 (ix2 p k) + x1 (ix2 (0 : Fin 1) k)) q := by
  unfold k2_pay1
  refine (block_lsm_apply _ _ _ _ _ _ _ p q).trans ?_
  refine congrArg (fun y => rowLSM (Ideal.ofBits .f32 0xFF800000#32) y q) (funext fun k => ?_)
  rw [addf_apply, shapeCast_self, broadcastTo_1b_ab_apply, shapeCast_self]

/-! ## The host's row reductions read at a row -/

/-- The index the host's one-axis reduction over the columns inserts: row `r`, column `k`. -/
theorem lift_row_host (h : (⟨2, ![100000, 40]⟩ : Shape).Reduces [1] ⟨1, ![100000]⟩) (r : Fin 100000) (k : Fin 40) :
    h.lift (ix1 r) k = ix2 r k := by
  funext a; apply Fin.ext
  match a with
  | ⟨0, _⟩ => rfl
  | ⟨1, _⟩ => rfl

/-- The host's row maximum: the fold of `max` from the initial value over the row's 40 entries. -/
theorem hostRowMax_apply (y : (⟨2, ![100000, 40]⟩ : Shape).Idx → EReal) (init : (⟨0, ![]⟩ : Shape).Idx → EReal)
    (h' : (⟨2, ![100000, 40]⟩ : Shape).ReducesTo [1] ⟨1, ![100000]⟩) (hu : 0 < (⟨0, ![]⟩ : Shape).numel) (r : Fin 100000) :
    Host.reduce (FloatOps.maximumf (F := Ideal) (φ := .f32)) y init h' hu (ix1 r)
      = (Finset.univ : Finset (Fin 40)).fold max (init (Shape.Idx.first hu)) (fun k => y (ix2 r k)) := by
  have h : (⟨2, ![100000, 40]⟩ : Shape).Reduces [1] ⟨1, ![100000]⟩ := by decide
  refine (Host.reduce_eq_fold_single (FloatOps.maximumf (F := Ideal) (φ := .f32)) y init h' h hu (ix1 r)).trans ?_
  show (Finset.univ : Finset (Fin 40)).fold max (init (Shape.Idx.first hu)) (y ∘ h.lift (ix1 r)) = _
  exact congrArg (fun f => (Finset.univ : Finset (Fin 40)).fold max (init (Shape.Idx.first hu)) f)
    (funext fun k => congrArg y (lift_row_host h r k))

/-- The host's row sum: the initial value plus the sum of the row's 40 entries. -/
theorem hostRowSum_apply (y : FVec Ideal (⟨2, ![100000, 40]⟩ : Shape) .f32) (init : (⟨0, ![]⟩ : Shape).Idx → EReal)
    (h' : (⟨2, ![100000, 40]⟩ : Shape).ReducesTo [1] ⟨1, ![100000]⟩) (hu : 0 < (⟨0, ![]⟩ : Shape).numel) (r : Fin 100000) :
    Host.reduceAdd (F := Ideal) y init h' hu (ix1 r) = init (Shape.Idx.first hu) + ∑ k : Fin 40, y (ix2 r k) := by
  have h : (⟨2, ![100000, 40]⟩ : Shape).Reduces [1] ⟨1, ![100000]⟩ := by decide
  simp only [Host.reduceAdd, Ideal.hostReduceAdd_def]
  rw [Ideal.hostReduceAdd_single h' h]
  refine congrArg (_ + ·) (Finset.sum_congr rfl fun k _ => ?_)
  exact congrArg y (lift_row_host h r k)

/-- A maximum against the fold's own starting value changes nothing. -/
theorem max_fold_max (c : EReal) (y : Fin 40 → EReal) :
    max c ((Finset.univ : Finset (Fin 40)).fold max c y) = (Finset.univ : Finset (Fin 40)).fold max c y :=
  max_eq_right (Finset.le_fold_max c |>.mpr (Or.inl le_rfl))
/-! ## The host's broadcasts of a row and of a column, read at an index -/

/-- One row `[1, b]` broadcast over `a` rows reads, at `(r, k)`, the row's entry `k`. -/
theorem bcast_row_apply {α : Type} {a b : ℕ} (v : (⟨2, ![1, b]⟩ : Shape).Idx → α)
    (h : (⟨2, ![1, b]⟩ : Shape).BroadcastsInDim ⟨2, ![a, b]⟩ ![0, 1]) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => show 0 = if (1 : ℕ) = 1 then 0 else r.val; rw [if_pos rfl]
  | ⟨1, _⟩ =>
    show k.val = if b = 1 then 0 else k.val
    split
    · have := k.isLt; omega
    · rfl

/-- A vector of `a` entries broadcast to a column `[a, 1]` reads, at `(r, u)`, its entry `r`. -/
theorem bcast_col1_apply {α : Type} {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

/-- A column `[a, 1]` broadcast over `b` columns reads, at `(r, k)`, the column's entry `r`. -/
theorem bcast_col_apply {α : Type} {a b : ℕ} (v : (⟨2, ![a, 1]⟩ : Shape).Idx → α)
    (h : (⟨2, ![a, 1]⟩ : Shape).BroadcastsInDim ⟨2, ![a, b]⟩ ![0, 1]) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => show 0 = if (1 : ℕ) = 1 then 0 else k.val; rw [if_pos rfl]

/-! ## The reference's regrouped operations read at an index -/

/-- The reference's two `−∞` constants and its zero constant, as the instance's values of their words. -/
theorem cst_ninf (i : Cert.ReferenceIdeal.S_.Idx) :
    Cert.ReferenceIdeal.Read.val_main_call2_cst (F := Ideal) i = Ideal.ofBits .f32 0xFF800000#32 :=
  (Cert.ReferenceIdeal.Read.val_main_call2_cst_apply (F := Ideal) i).trans (Ideal.ofBits_def _)
theorem cst0_ninf (i : Cert.ReferenceIdeal.S_.Idx) :
    Cert.ReferenceIdeal.Read.val_main_call2_cst_0 (F := Ideal) i = Ideal.ofBits .f32 0xFF800000#32 :=
  (Cert.ReferenceIdeal.Read.val_main_call2_cst_0_apply (F := Ideal) i).trans (Ideal.ofBits_def _)
theorem cst1_zero (i : Cert.ReferenceIdeal.S_.Idx) :
    Cert.ReferenceIdeal.Read.val_main_call2_cst_1 (F := Ideal) i = 0 :=
  (Cert.ReferenceIdeal.Read.val_main_call2_cst_1_apply (F := Ideal) i).trans ((Ideal.ofBits_def _).trans Ideal.ofBits_zero_f32)

/-- `biased A B` at `(r, k)`: the entry of `A` plus the one row of `B` at column `k`. -/
theorem biased_apply (A : (⟨2, ![100000, 40]⟩ : Shape).Idx → EReal) (B : (⟨2, ![1, 40]⟩ : Shape).Idx → EReal) (r : Fin 100000) (k : Fin 40) :
    Cert.Spec.biased (F := Ideal) A B (ix2 r k) = A (ix2 r k) + B (ix2 (0 : Fin 1) k) := by
  unfold Cert.Spec.biased
  exact congrArg (fun z : EReal => A (ix2 r k) + z) (bcast_row_apply B _ r k)

/-- `rowMax y` at row `r`: the fold of `max` from the word `0xFF800000`'s value over the row — the second maximum against the same
    value changes nothing. -/
theorem rowMax_apply (y : (⟨2, ![100000, 40]⟩ : Shape).Idx → EReal) (r : Fin 100000) :
    Cert.Spec.rowMax (F := Ideal) y (ix1 r)
      = (Finset.univ : Finset (Fin 40)).fold max (Ideal.ofBits .f32 0xFF800000#32) (fun k => y (ix2 r k)) := by
  unfold Cert.Spec.rowMax
  rw [maximumf_apply, hostRowMax_apply, Cert.ReferenceIdeal.Read.val_main_call2_v1_apply, cst0_ninf, cst_ninf, max_fold_max]

/-- `overRow v` at `(r, k)`: the row's value. -/
theorem overRow_apply (v : (⟨1, ![100000]⟩ : Shape).Idx → EReal) (r : Fin 100000) (k : Fin 40) :
    Cert.Spec.overRow (F := Ideal) v (ix2 r k) = v (ix1 r) := by
  unfold Cert.Spec.overRow
  exact (bcast_col_apply _ _ r k).trans (bcast_col1_apply v _ r 0)

/-- `shifted y` at `(r, k)`: the entry less its row's maximum. -/
theorem shifted_apply (y : (⟨2, ![100000, 40]⟩ : Shape).Idx → EReal) (r : Fin 100000) (k : Fin 40) :
    Cert.Spec.shifted (F := Ideal) y (ix2 r k)
      = y (ix2 r k) - (Finset.univ : Finset (Fin 40)).fold max (Ideal.ofBits .f32 0xFF800000#32) (fun k => y (ix2 r k)) := by
  unfold Cert.Spec.shifted
  rw [subf_apply, overRow_apply, rowMax_apply]

/-- The host's exponential and logarithm of an array, read at an index. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- `logSoftmax y` at `(r, q)`: the log-softmax of row `r` at column `q`; the host's sum starts from the zero word's value `0`. -/
theorem logSoftmax_apply (y : (⟨2, ![100000, 40]⟩ : Shape).Idx → EReal) (r : Fin 100000) (q : Fin 40) :
    Cert.Spec.logSoftmax (F := Ideal) y (ix2 r q) = rowLSM (Ideal.ofBits .f32 0xFF800000#32) (fun k => y (ix2 r k)) q := by
  unfold Cert.Spec.logSoftmax rowLSM
  rw [subf_apply, shifted_apply y r q, bcast_col_apply, hostLog_apply, bcast_col1_apply, hostRowSum_apply, cst1_zero, zero_add]
  refine congrArg (fun s : EReal => _ - Ideal.log s) (Finset.sum_congr rfl fun k _ => ?_)
  rw [hostExp_apply, shifted_apply y r k]

/-! ## From blocks to the array -/

/-- The whole array the region writes: row `r` of the result is the log-softmax of row `r` of `A` plus the one row of `B`. -/
def lsmArr (A : S100000x40.Idx → EReal) (B : S1x40.Idx → EReal) : S100000x40.Idx → EReal :=
  fun i => rowLSM (Ideal.ofBits .f32 0xFF800000#32) (fun k => A (ix2 (i 0 : Fin 100000) k) + B (ix2 (0 : Fin 1) k)) (i 1 : Fin 40)

/-- `lsmArr` at row `r`, column `q`. -/
theorem lsmArr_apply (A : S100000x40.Idx → EReal) (B : S1x40.Idx → EReal) (r : Fin 100000) (q : Fin 40) :
    lsmArr A B (ix2 r q) = rowLSM (Ideal.ofBits .f32 0xFF800000#32) (fun k => A (ix2 r k) + B (ix2 (0 : Fin 1) k)) q := rfl

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the two row-tiled windows sit at block `(t, 0)`, the small operand at `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, k)` of the first window's block at point `t` is entry `(10000·t + p, k)` of its array. -/
theorem blk0_apply (c : Dev nD) (t : Fin cfg2.N) (p : Fin 10000) (k : Fin 40) (r : Fin 100000) (hr : r.val = 10000 * t.val + p.val)
    (e0 : win2_0.index t (0 : Fin 2) = t.val) (e1 : win2_0.index t (1 : Fin 2) = 0) :
    iblk2 V c 0 t (ix2 p k) = V c main_v61 (ix2 r k) := by
  show V c main_v61 (((cfg2.win 0).blk t).view.emb (ix2 p k)) = V c main_v61 (ix2 r k)
  refine congrArg (V c main_v61) (funext fun a => Fin.ext ?_)
  match a with
  | ⟨0, _⟩ => show win2_0.index t (0 : Fin 2) * 10000 + 1 * p.val = r.val; rw [e0, hr]; omega
  | ⟨1, _⟩ => show win2_0.index t (1 : Fin 2) * 40 + 1 * k.val = k.val; rw [e1]; omega

/-- The second window's block is its whole one-row array at every point. -/
theorem blk1_apply (c : Dev nD) (t : Fin cfg2.N) (k : Fin 40)
    (e0 : win2_1.index t (0 : Fin 2) = 0) (e1 : win2_1.index t (1 : Fin 2) = 0) :
    iblk2 V c 1 t (ix2 (0 : Fin 1) k) = V c main_v62 (ix2 (0 : Fin 1) k) := by
  show V c main_v62 (((cfg2.win 1).blk t).view.emb (ix2 (0 : Fin 1) k)) = V c main_v62 (ix2 (0 : Fin 1) k)
  refine congrArg (V c main_v62) (funext fun a => Fin.ext ?_)
  match a with
  | ⟨0, _⟩ => show win2_1.index t (0 : Fin 2) * 1 + 1 * 0 = 0; rw [e0]
  | ⟨1, _⟩ => show win2_1.index t (1 : Fin 2) * 40 + 1 * k.val = k.val; rw [e1]; omega

/-- What point `t` writes back is block `t` of `lsmArr` of the two input arrays as the region finds them. -/
theorem flushed_eq (c : Dev nD) (t : Fin cfg2.N) :
    (dat2 V c).flushed 2 t = ((cfg2.win 2).blk t).view.read (Elt Ideal) (lsmArr (V c main_v61) (V c main_v62)) := by
  show (cfg2.win 2).cut (grid2.coords t) ((dat2 V c).after 2 t) = _
  rw [after2_2]
  unfold out2_2
  rw [View.canon_unit_zero hz]
  simp only [View.ld_unit_zero (S := S10000x40) hz, View.ld_unit_zero (S := S1x40) hz]
  obtain ⟨e00, e01, e10, e11, e20, e21⟩ := idx_facts t
  have ht : t.val < 10 := by have h1 := t.isLt; have hN : cfg2.N = 10 := N_2; omega
  funext j
  obtain ⟨p, q, rfl⟩ : ∃ (p : Fin 10000) (q : Fin 40), j = ix2 p q := ⟨j 0, j 1, eq_ix2 j⟩
  show k2_pay1 (iblk2 V c 0 t) (iblk2 V c 1 t) (ix2 p q)
    = lsmArr (V c main_v61) (V c main_v62) (((cfg2.win 2).blk t).view.emb (ix2 p q))
  refine (pay_apply (iblk2 V c 0 t) (iblk2 V c 1 t) p q).trans ?_
  have hp : p.val < 10000 := p.isLt
  have hr : 10000 * t.val + p.val < 100000 := by omega
  have hemb : ((cfg2.win 2).blk t).view.emb (ix2 p q) = ix2 (⟨10000 * t.val + p.val, hr⟩ : Fin 100000) q := by
    funext a; apply Fin.ext
    match a with
    | ⟨0, _⟩ => show win2_2.index t (0 : Fin 2) * 10000 + 1 * p.val = 10000 * t.val + p.val; rw [e20]; omega
    | ⟨1, _⟩ => show win2_2.index t (1 : Fin 2) * 40 + 1 * q.val = q.val; rw [e21]; omega
  rw [hemb]
  refine Eq.trans ?_ (lsmArr_apply (V c main_v61) (V c main_v62) ⟨10000 * t.val + p.val, hr⟩ q).symm
  refine congrArg (fun y => rowLSM (Ideal.ofBits .f32 0xFF800000#32) y q) (funext fun k => ?_)
  exact congrArg₂ (fun a b : EReal => a + b) (blk0_apply V c t p k ⟨10000 * t.val + p.val, hr⟩ rfl e00 e01) (blk1_apply V c t k e10 e11)

/-- An index of the array is in point `t`'s block iff each coordinate is in the block's range on its axis. -/
theorem mem_blk (t : Fin cfg2.N) (i : S100000x40.Idx) :
    i ∈ ((cfg2.win 2).blk t).view.set ↔ ∀ a : Fin 2, win2_2.index t a * S10000x40.size a ≤ (i a).val
      ∧ (i a).val < win2_2.index t a * S10000x40.size a + S10000x40.size a := by
  show i ∈ ((View.whole main_v63).slice (win2_2.rect t)).set ↔ _
  rw [View.set_slice_whole, Rect.mem_set_unit]
  exact Iff.rfl

/-- Every row lies in a block that is written back: row `r` in the block of point `r / 10000`. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, e20, e21⟩ := idx_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    rw [e20, ht]; omega
  | ⟨1, _⟩ =>
    show win2_2.index t (1 : Fin 2) * 40 ≤ (i 1).val ∧ (i 1).val < win2_2.index t (1 : Fin 2) * 40 + 40
    rw [e21]; omega

/-- The array the region's result window ends holding, whatever the region found in it: `lsmArr` of the two input arrays. -/
theorem arr_eq_lsmArr (c : Dev nD) : (dat2 V c).arrAt 2 cfg2.N = lsmArr (V c main_v61) (V c main_v62) :=
  (dat2 V c).arrAt_eq_of_cover 2 (lsmArr (V c main_v61) (V c main_v62)) (fun t _ => flushed_eq V c t) cover

/-- The reference's log-softmax of the biased array is `lsmArr`. -/
theorem spec_eq_lsmArr (A : (⟨2, ![100000, 40]⟩ : Shape).Idx → EReal) (B : (⟨2, ![1, 40]⟩ : Shape).Idx → EReal) :
    Cert.Spec.logSoftmax (F := Ideal) (Cert.Spec.biased (F := Ideal) A B) = lsmArr A B := by
  funext i
  obtain ⟨r, q, rfl⟩ : ∃ (r : Fin 100000) (q : Fin 40), i = ix2 r q := ⟨i 0, i 1, eq_ix2 i⟩
  refine (logSoftmax_apply _ r q).trans ?_
  exact (congrArg (fun y => rowLSM (Ideal.ofBits .f32 0xFF800000#32) y q) (funext fun k => biased_apply A B r k)).trans
    (lsmArr_apply A B r q).symm

/-- THE VALUE OF REGION 2. Whatever the result window's array held at entry, after the ten points it holds the reference's
    log-softmax of the first input array plus the one-row second input array, both as the region finds them. -/
theorem value (c : Dev nD) : (dat2 (F := Ideal) V c).arrAt 2 cfg2.N
    = Cert.Spec.logSoftmax (F := Ideal) (Cert.Spec.biased (F := Ideal) (V c main_v61) (V c main_v62)) :=
  (arr_eq_lsmArr V c).trans (spec_eq_lsmArr (V c main_v61) (V c main_v62)).symm

end Cert.KernelIdeal.Region2

end
-- ==== Proof.Whole.lean ====
/-
  The idealized kernel's result buffer at the last boundary, as the reference's last stage of the arguments. Walking the
  eight segments: the first pallas_call's output array is the product of the first two float arguments (its operands
  are those arguments, a change of float format being the identity); the host aggregates it over the edge arrays, which
  are the reference's; the second pallas_call's output is the hidden layer of that aggregation, the first bias as a row
  and the second weight matrix; the host aggregates again; the third pallas_call's output is the log-softmax of that
  aggregation plus the second bias. A pallas_call changes none but its own arrays, and a host stretch none but the
  buffers it writes, so the edge arrays and the arguments are carried through unchanged.
-/
import proofs.«117875_j72662256714549_2_alg».proof.Proof.Gen.KernelIdeal.Frame
import proofs.«117875_j72662256714549_2_alg».proof.Proof.Spec
import proofs.«117875_j72662256714549_2_alg».proof.Proof.Edges
import proofs.«117875_j72662256714549_2_alg».proof.Proof.Between
import proofs.«117875_j72662256714549_2_alg».proof.Proof.Region0
import proofs.«117875_j72662256714549_2_alg».proof.Proof.Region1
import proofs.«117875_j72662256714549_2_alg».proof.Proof.Region2

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What is carried through: the edge arrays and the arguments at each boundary -/

theorem row4 : W4 m ρ c (Proc.devRef .tc main_v3) = Cert.ReferenceIdeal.Read.val_main_v3 (F := Ideal) (m ((c : Thread nD τ).loc main_arg1)) :=
  (W4_of_ne m ρ c main_v3 (by decide)).trans (Edges.row_eq m ρ c)
theorem col4 : W4 m ρ c (Proc.devRef .tc main_v6) = Cert.ReferenceIdeal.Read.val_main_v6 (F := Ideal) (m ((c : Thread nD τ).loc main_arg1)) :=
  (W4_of_ne m ρ c main_v6 (by decide)).trans (Edges.col_eq m ρ c)
theorem norm4 : W4 m ρ c (Proc.devRef .tc main_v29) = Cert.ReferenceIdeal.Read.val_main_v29 (F := Ideal) (m ((c : Thread nD τ).loc main_arg1)) :=
  (W4_of_ne m ρ c main_v29 (by decide)).trans (Edges.norm_eq m ρ c)
theorem arg3_4 : W4 m ρ c (Proc.devRef .tc main_arg3) = (m ((c : Thread nD τ).loc main_arg3)) :=
  (W4_of_ne m ρ c main_arg3 (by decide)).trans (Edges.arg3_eq m ρ c)
theorem arg4_4 : W4 m ρ c (Proc.devRef .tc main_arg4) = (m ((c : Thread nD τ).loc main_arg4)) :=
  (W4_of_ne m ρ c main_arg4 (by decide)).trans (Edges.arg4_eq m ρ c)
theorem arg5_4 : W4 m ρ c (Proc.devRef .tc main_arg5) = (m ((c : Thread nD τ).loc main_arg5)) :=
  (W4_of_ne m ρ c main_arg5 (by decide)).trans (Edges.arg5_eq m ρ c)

theorem row6 : W6 m ρ c (Proc.devRef .tc main_v3) = Cert.ReferenceIdeal.Read.val_main_v3 (F := Ideal) (m ((c : Thread nD τ).loc main_arg1)) :=
  (W6_of_ne m ρ c main_v3 (by decide)).trans ((Between.keep1_row (W4 m ρ c)).trans (row4 m ρ c))
theorem col6 : W6 m ρ c (Proc.devRef .tc main_v6) = Cert.ReferenceIdeal.Read.val_main_v6 (F := Ideal) (m ((c : Thread nD τ).loc main_arg1)) :=
  (W6_of_ne m ρ c main_v6 (by decide)).trans ((Between.keep1_col (W4 m ρ c)).trans (col4 m ρ c))
theorem norm6 : W6 m ρ c (Proc.devRef .tc main_v29) = Cert.ReferenceIdeal.Read.val_main_v29 (F := Ideal) (m ((c : Thread nD τ).loc main_arg1)) :=
  (W6_of_ne m ρ c main_v29 (by decide)).trans ((Between.keep1_norm (W4 m ρ c)).trans (norm4 m ρ c))
theorem arg5_6 : W6 m ρ c (Proc.devRef .tc main_arg5) = (m ((c : Thread nD τ).loc main_arg5)) :=
  (W6_of_ne m ρ c main_arg5 (by decide)).trans ((Between.keep1_arg5 (W4 m ρ c)).trans (arg5_4 m ρ c))

/-! ## The three pallas_calls and the two aggregations, in order -/

/-- The first pallas_call's output array: the product of the first and the third argument. -/
theorem product1 : W4 m ρ c (Proc.devRef .tc main_v32)
    = Cert.ReferenceIdeal.Read.val_main_v30 (F := Ideal) (m ((c : Thread nD τ).loc main_arg0)) (m ((c : Thread nD τ).loc main_arg2)) := by
  refine ((W4_arr m ρ c 2).trans (Region0.value (V3 m ρ) c)).trans ?_
  show Cert.ReferenceIdeal.Read.val_main_v30 (F := Ideal) (W3 m ρ c (Proc.devRef .tc main_v30)) (W3 m ρ c (Proc.devRef .tc main_v31)) = _
  rw [Edges.left_eq, Edges.right_eq]

/-- Its aggregation over the edges, as the second pallas_call finds it. -/
theorem agg1 : W5 m ρ c (Proc.devRef .tc main_v45)
    = Cert.ReferenceIdeal.Read.val_main_v43 (F := Ideal) (m ((c : Thread nD τ).loc main_arg0)) (m ((c : Thread nD τ).loc main_arg1)) (m ((c : Thread nD τ).loc main_arg2)) := by
  refine (Between.agg64_eq (W4 m ρ c)).trans ?_
  rw [product1, row4, col4, norm4, Cert.Spec.v43_eq]

theorem bias1 : W5 m ρ c (Proc.devRef .tc main_v46) = Cert.ReferenceIdeal.Read.val_main_v44 (F := Ideal) (m ((c : Thread nD τ).loc main_arg3)) :=
  (Between.bias64_eq (W4 m ρ c)).trans (congrArg _ (arg3_4 m ρ c))
theorem weight2 : W5 m ρ c (Proc.devRef .tc main_v47) = (m ((c : Thread nD τ).loc main_arg4)) :=
  (Between.weight2_eq (W4 m ρ c)).trans (arg4_4 m ρ c)

/-- The second pallas_call's output array: the reference's second product. -/
theorem product2 : W6 m ρ c (Proc.devRef .tc main_v48)
    = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W6_arr m ρ c 3).trans (Region1.value (V5 m ρ) c)).trans ?_
  show Cert.Spec.hidden (F := Ideal) (W5 m ρ c (Proc.devRef .tc main_v45)) (W5 m ρ c (Proc.devRef .tc main_v46)) (W5 m ρ c (Proc.devRef .tc main_v47)) = _
  rw [agg1, bias1, weight2, Cert.Spec.v48_eq]

/-- Its aggregation over the edges, as the third pallas_call finds it. -/
theorem agg2 : W7 m ρ c (Proc.devRef .tc main_v61)
    = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (Between.agg40_eq (W6 m ρ c)).trans ?_
  rw [product2, row6, col6, norm6, Cert.Spec.v61_eq]

theorem bias2 : W7 m ρ c (Proc.devRef .tc main_v62) = Cert.ReferenceIdeal.Read.val_main_v62 (F := Ideal) (m ((c : Thread nD τ).loc main_arg5)) :=
  (Between.bias40_eq (W6 m ρ c)).trans (congrArg _ (arg5_6 m ρ c))

/-- THE RESULT BUFFER at the last boundary: the reference's last stage of the six arguments. -/
theorem result : W8 m ρ c (Proc.devRef .tc main_v63)
    = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W8_arr m ρ c 2).trans (Region2.value (V7 m ρ) c)).trans ?_
  show Cert.Spec.logSoftmax (F := Ideal) (Cert.Spec.biased (F := Ideal) (W7 m ρ c (Proc.devRef .tc main_v61)) (W7 m ρ c (Proc.devRef .tc main_v62))) = _
  rw [agg2, bias2, Cert.Spec.v65_eq]

end Cert.KernelIdeal.Whole

end
-- ==== Proof.lean ====
/-
  The certificate's five claims. The kernel — a two-layer graph convolution with a log-softmax output, its three dense
  stages as pallas_calls and its two edge aggregations on the host — and the reference compute, on the extended reals,
  the same function of the six arguments:

      out = logSoftmax (Agg (max (Agg (x · W1) + b1, 0) · W2) + b2),

  where `Agg h` sums, into row `col e`, row `row e` of `h` scaled by `norm e` over the 1,350,000 edges. The two programs
  apply the same host operations to build `row`, `col`, `norm` and to aggregate; the kernel's matrix products into a zero
  accumulator, tiled ten blocks of 10,000 rows, are the reference's `dot_general`s (the same sums over `k`, whatever the
  tiling; a change of float format is the identity); and its row-wise maxima and sums are the reference's reductions. No
  law of the extended reals beyond these identifications of sums and folds is used, so the precondition is not opened.
  The frames of the two kernel programs are the generated ones; the reference's is its run with the result dropped; the
  ideal pass rewrote nothing, so `preserves` is `True`.
-/
import proofs.«117875_j72662256714549_2_alg».proof.Defs
import proofs.«117875_j72662256714549_2_alg».proof.Proof.Gen.Kernel
import proofs.«117875_j72662256714549_2_alg».proof.Proof.Gen.Kernel.Skeleton
import proofs.«117875_j72662256714549_2_alg».proof.Proof.Gen.Kernel.Launch
import proofs.«117875_j72662256714549_2_alg».proof.Proof.Gen.Kernel.Points
import proofs.«117875_j72662256714549_2_alg».proof.Proof.Gen.Kernel.Frame
import proofs.«117875_j72662256714549_2_alg».proof.Proof.Gen.KernelIdeal
import proofs.«117875_j72662256714549_2_alg».proof.Proof.Gen.KernelIdeal.Skeleton
import proofs.«117875_j72662256714549_2_alg».proof.Proof.Gen.KernelIdeal.Launch
import proofs.«117875_j72662256714549_2_alg».proof.Proof.Gen.KernelIdeal.Points
import proofs.«117875_j72662256714549_2_alg».proof.Proof.Gen.KernelIdeal.Frame
import proofs.«117875_j72662256714549_2_alg».proof.Proof.Gen.ReferenceIdeal
import proofs.«117875_j72662256714549_2_alg».proof.Proof.Gen.Pre_finite_inputs
import proofs.«117875_j72662256714549_2_alg».proof.Proof.RefValue
import proofs.«117875_j72662256714549_2_alg».proof.Proof.KRun
import proofs.«117875_j72662256714549_2_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- Both runs end with the result at the reference's last stage of the arguments, which the two memories share. -/
theorem algebraic : Cert.algebraic_KernelIdeal_ReferenceIdeal := by
  intro m ρ m' ρ' _ hagree
  refine ⟨fun c => Cert.ReferenceIdeal.Read.val_main_v65 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
